-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000x64 : Shape := ⟨2, ![400000, 64]⟩
abbrev S400000 : Shape := ⟨1, ![400000]⟩
abbrev S320x256 : Shape := ⟨2, ![320, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S320x256 : S_.BroadcastsInDim S320x256 (![] : Fin 0 → Fin S320x256.rank)
  reducesTo_S320x256_S_d0_1 : S320x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S256 .f32) (main_arg12 : FVec F S256 .f32) (main_arg13 : FVec F S256 .f32) (main_arg14 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x256 .f32) (main_arg1 : FVec F S400000x64 .f32) (main_arg2 : IVec S400000 32) (main_arg3 : IVec S400000 32) (main_arg4 : FVec F S320x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S320x256 .f32 := Host.absf main_arg4
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S50000x256 : Shape := ⟨2, ![50000, 256]⟩
abbrev S400000x64 : Shape := ⟨2, ![400000, 64]⟩
abbrev S400000 : Shape := ⟨1, ![400000]⟩
abbrev S320x256 : Shape := ⟨2, ![320, 256]⟩
abbrev S256x256 : Shape := ⟨2, ![256, 256]⟩
abbrev S256 : Shape := ⟨1, ![256]⟩
abbrev S_ : Shape := ⟨0, ![]⟩
abbrev S400000x1 : Shape := ⟨2, ![400000, 1]⟩
abbrev S400000x256 : Shape := ⟨2, ![400000, 256]⟩
abbrev S400000x320 : Shape := ⟨2, ![400000, 320]⟩
abbrev S8000x320 : Shape := ⟨2, ![8000, 320]⟩
abbrev S8000x256 : Shape := ⟨2, ![8000, 256]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 43
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S400000x64, .f32⟩
  | .hbm, ⟨2, _⟩ => ⟨S400000, .i32⟩
  | .hbm, ⟨3, _⟩ => ⟨S400000, .i32⟩
  | .hbm, ⟨4, _⟩ => ⟨S320x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x256, .f32⟩
  | .hbm, ⟨24, _⟩ => ⟨S400000x320, .f32⟩
  | .hbm, ⟨25, _⟩ => ⟨S400000x320, .bf16⟩
  | .hbm, ⟨26, _⟩ => ⟨S320x256, .bf16⟩
  | .hbm, ⟨27, _⟩ => ⟨S400000x256, .f32⟩
  | .hbm, ⟨28, _⟩ => ⟨S_, .f32⟩
  | .hbm, ⟨29, _⟩ => ⟨S50000x256, .f32⟩
  | .hbm, ⟨30, _⟩ => ⟨S400000x1, .i32⟩
  | .hbm, ⟨31, _⟩ => ⟨S50000x256, .f32⟩
  | .hbm, ⟨32, _⟩ => ⟨S256x256, .bf16⟩
  | .hbm, ⟨33, _⟩ => ⟨S256x256, .bf16⟩
  | .hbm, ⟨34, _⟩ => ⟨S256x256, .bf16⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S50000x256, .f32⟩
  | .local _ .vmem, ⟨0, _⟩ => ⟨S8000x320, .bf16⟩
  | .local _ .vmem, ⟨1, _⟩ => ⟨S8000x320, .bf16⟩
  | .local _ .vmem, ⟨2, _⟩ => ⟨S320x256, .bf16⟩
  | .local _ .vmem, ⟨3, _⟩ => ⟨S8000x256, .f32⟩
  | .local _ .vmem, ⟨4, _⟩ => ⟨S8000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x256_S400000x64_S400000x320_d1 : Shape.Concatenates [S400000x256, S400000x64] S400000x320 1
  bitsLt_bf16_f32 : FTy.bits .bf16 < FTy.bits .f32
  inb_S8000x320_S8000x320_0_0 : ∀ a, (![0, 0] : Fin 2 → Nat) a + S8000x320.size a ≤ S8000x320.size a
  h_S8000x320 : 0 < S8000x320.numel
  shapeCasts_S8000x320_S8000x320 : S8000x320.ShapeCasts S8000x320
  inb_S320x256_S320x256_0_0 : ∀ a, (![0, 0] : Fin 2 → Nat) a + S320x256.size a ≤ S320x256.size a
  h_S320x256 : 0 < S320x256.numel
  shapeCasts_S320x256_S320x256 : S320x256.ShapeCasts S320x256
  inb_S8000x256_S8000x256_0_0 : ∀ a, (![0, 0] : Fin 2 → Nat) a + S8000x256.size a ≤ S8000x256.size a
  h_S8000x256 : 0 < S8000x256.numel
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2000x256_S2000 : S2000x256.Reduces [1] S2000
  shapeCasts_S2000_S2000x1 : S2000.ShapeCasts S2000x1
  broadcasts_S2000x1_S2000x256 : S2000x1.Broadcasts S2000x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S50000x256_S400000x1_S400000x256_1_0_n_n_0_1_1256_wf : GatherDims.WF S50000x256 S400000x1 S400000x256 [1] [0] [] [0] [] 1 ![1, 256]
  dot_S8000x320_S320x256_S8000x256_1_0_0_1_n_n_wf : DotDims.WF S8000x320 S320x256 S8000x256 [1] [0] [0] [1] [] []
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x320.size a ≤ S400000x320.size a
  hwx0_0 : ∀ i : grid0.Coords, EltTy.bits .bf16 = 32 ∨ (Rect.block (s := S400000x320) S8000x320.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x256.size a ≤ S320x256.size a
  hwx0_1 : ∀ i : grid0.Coords, EltTy.bits .bf16 = 32 ∨ (Rect.block (s := S320x256) S320x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S400000x256.size a
  hwx0_2 : ∀ i : grid0.Coords, EltTy.bits .f32 = 32 ∨ (Rect.block (s := S400000x256) S8000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x256.size a ≤ S50000x256.size a
  hwx1_12 : ∀ i : grid1.Coords, EltTy.bits .f32 = 32 ∨ (Rect.block (s := S50000x256) S2000x256.size (cc1_transform_12 i) (hinb1_12 i)).WholeWords (EltTy.packing .f32)

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S8000x320_S320x256_S8000x256_1_0_0_1_n_n : DotDims S8000x320 S320x256 S8000x256 where
  lhsContracting := [1]
  rhsContracting := [0]
  lhsNonContracting := [0]
  rhsNonContracting := [1]
  lhsBatch := []
  rhsBatch := []
  wf := dot_S8000x320_S320x256_S8000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v8) S8000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S320x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v24) S2000x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x256 : Shape := ⟨2, ![50000, 256]⟩
abbrev S400000x64 : Shape := ⟨2, ![400000, 64]⟩
abbrev S400000 : Shape := ⟨1, ![400000]⟩
abbrev S320x256 : Shape := ⟨2, ![320, 256]⟩
abbrev S256x256 : Shape := ⟨2, ![256, 256]⟩
abbrev S256 : Shape := ⟨1, ![256]⟩
abbrev S_ : Shape := ⟨0, ![]⟩
abbrev S400000x1 : Shape := ⟨2, ![400000, 1]⟩
abbrev S400000x256 : Shape := ⟨2, ![400000, 256]⟩
abbrev S400000x320 : Shape := ⟨2, ![400000, 320]⟩
abbrev S50000 : Shape := ⟨1, ![50000]⟩
abbrev S50000x1 : Shape := ⟨2, ![50000, 1]⟩
abbrev S1x256 : Shape := ⟨2, ![1, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S400000x64, .f32⟩
  | .hbm, ⟨2, _⟩ => ⟨S400000, .i32⟩
  | .hbm, ⟨3, _⟩ => ⟨S400000, .i32⟩
  | .hbm, ⟨4, _⟩ => ⟨S320x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x256, .f32⟩
  | .hbm, ⟨24, _⟩ => ⟨S400000x320, .f32⟩
  | .hbm, ⟨25, _⟩ => ⟨S400000x256, .f32⟩
  | .hbm, ⟨26, _⟩ => ⟨S_, .f32⟩
  | .hbm, ⟨27, _⟩ => ⟨S50000x256, .f32⟩
  | .hbm, ⟨28, _⟩ => ⟨S400000x1, .i32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S50000x256, .f32⟩
  | .hbm, ⟨101, _⟩ => ⟨S50000x256, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S1x256, .f32⟩
  | .hbm, ⟨109, _⟩ => ⟨S50000x256, .f32⟩
  | .hbm, ⟨110, _⟩ => ⟨S50000x256, .f32⟩
  | .hbm, ⟨111, _⟩ => ⟨S1x256, .f32⟩
  | .hbm, ⟨112, _⟩ => ⟨S50000x256, .f32⟩
  | .hbm, ⟨113, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_cst : Ref sig .tc := ⟨.hbm, 30, rfl⟩
abbrev main_call0_v0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call2_cst : Ref sig .tc := ⟨.hbm, 75, rfl⟩
abbrev main_call2_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_10 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x256_S400000x64_S400000x320_d1 : Shape.Concatenates [S400000x256, S400000x64] S400000x320 1
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S400000x1_S400000x256_1_0_n_n_0_1_1256_wf : GatherDims.WF S50000x256 S400000x1 S400000x256 [1] [0] [] [0] [] 1 ![1, 256]
  dot_S400000x320_S320x256_S400000x256_1_0_0_1_n_n_wf : DotDims.WF S400000x320 S320x256 S400000x256 [1] [0] [0] [1] [] []
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x320_S320x256_S400000x256_1_0_0_1_n_n : DotDims S400000x320 S320x256 S400000x256 where
  lhsContracting := [1]
  rhsContracting := [0]
  lhsNonContracting := [0]
  rhsNonContracting := [1]
  lhsBatch := []
  rhsBatch := []
  wf := dot_S400000x320_S320x256_S400000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its RESULT named.

  The program is two regions among two stretches of host operations.  Its generated frame run ends with every buffer the
  host can see at the contents the last boundary names (`Gen.W4`): here the same run is stated with the result buffer read
  there too, beside the unchanged arguments.  The result buffer is the node-update region's output array, so its final
  contents are what that region's write-backs leave: `(Gen.dat1 (Gen.V3 m ρ) c).arrAt 12 N`.
-/
import proofs.«135678_j62749472195029_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and the
    argument arrays as launched. -/
theorem run_value : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

/-- The result buffer is the node-update region's output array: what its write-backs leave. -/
theorem result_arr (c : Dev nD) :
    W4 m ρ c (Proc.devRef .tc main_v24) = (dat1 (V3 m ρ) c).arrAt 12 cfg1.N :=
  W4_arr m ρ c 12

end Cert.KernelIdeal.RunValue

end
-- ==== Proof.KernelMessages.lean ====
/-
  The message-projection kernel's arithmetic, one block of 8000 edges at a time, read at an entry: the stored value is
  the [8000, 320] block of edge inputs times the whole [320, 256] projection matrix into a zero accumulator, so its
  entry (p, j) is the sum over k < 320 of entry (p, k) of the block times entry (k, j) of the matrix.
-/
import proofs.«135678_j62749472195029_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelMessages

open Idealize.ShloMosaic Idealize.ShloMosaic.ValueIdx Cert.KernelIdeal Cert.KernelIdeal.Gen

theorem lhs_msg_0 (i : S8000x256.Idx) (q : dot_S8000x320_S320x256_S8000x256_1_0_0_1_n_n.contr.Idx) :
    (dot_S8000x320_S320x256_S8000x256_1_0_0_1_n_n.lhsIdx i q 0).val = (i 0).val := by
  unfold DotDims.lhsIdx
  rw [dif_neg (show ¬(0 : Fin S8000x320.rank) ∈ dot_S8000x320_S320x256_S8000x256_1_0_0_1_n_n.lhsBatch by decide), dif_pos (show (0 : Fin S8000x320.rank) ∈ dot_S8000x320_S320x256_S8000x256_1_0_0_1_n_n.lhsNonContracting by decide)]
  rfl
theorem lhs_msg_1 (i : S8000x256.Idx) (q : dot_S8000x320_S320x256_S8000x256_1_0_0_1_n_n.contr.Idx) :
    (dot_S8000x320_S320x256_S8000x256_1_0_0_1_n_n.lhsIdx i q 1).val = (q ⟨0, by decide⟩).val :=
  dot_S8000x320_S320x256_S8000x256_1_0_0_1_n_n.lhsIdx_val_of_single rfl i q
theorem rhs_msg_0 (i : S8000x256.Idx) (q : dot_S8000x320_S320x256_S8000x256_1_0_0_1_n_n.contr.Idx) :
    (dot_S8000x320_S320x256_S8000x256_1_0_0_1_n_n.rhsIdx i q 0).val = (q ⟨0, by decide⟩).val :=
  dot_S8000x320_S320x256_S8000x256_1_0_0_1_n_n.rhsIdx_val_of_single rfl i q
theorem rhs_msg_1 (i : S8000x256.Idx) (q : dot_S8000x320_S320x256_S8000x256_1_0_0_1_n_n.contr.Idx) :
    (dot_S8000x320_S320x256_S8000x256_1_0_0_1_n_n.rhsIdx i q 1).val = (i 1).val := by
  unfold DotDims.rhsIdx
  rw [dif_neg (show ¬(1 : Fin S320x256.rank) ∈ dot_S8000x320_S320x256_S8000x256_1_0_0_1_n_n.rhsBatch by decide), dif_pos (show (1 : Fin S320x256.rank) ∈ dot_S8000x320_S320x256_S8000x256_1_0_0_1_n_n.rhsNonContracting by decide)]
  rfl

/-- Entry (p, j) of the product is the sum over k of (p, k) of the left operand times (k, j) of the right one. -/
theorem matmul_msg_apply (l : FVec Ideal S8000x320 .bf16) (r : FVec Ideal S320x256 .bf16) (p : Fin 8000) (j : Fin 256) :
    matmul dot_S8000x320_S320x256_S8000x256_1_0_0_1_n_n none l r (constant S8000x256 .f32 0x00000000#32) (ix2 p j)
      = ∑ k : Fin 320, l (ix2 p k) * r (ix2 k j) := by
  refine (Ideal.matmul_constant_zero_apply dot_S8000x320_S320x256_S8000x256_1_0_0_1_n_n none l r (ix2 p j)).trans ?_
  rw [← Equiv.sum_comp (contrEquiv1 dot_S8000x320_S320x256_S8000x256_1_0_0_1_n_n 320 rfl rfl).symm]
  refine Finset.sum_congr rfl fun k _ => ?_
  have hk := contrEquiv1_symm_val dot_S8000x320_S320x256_S8000x256_1_0_0_1_n_n 320 rfl rfl k
  have el : dot_S8000x320_S320x256_S8000x256_1_0_0_1_n_n.lhsIdx (ix2 p j) ((contrEquiv1 dot_S8000x320_S320x256_S8000x256_1_0_0_1_n_n 320 rfl rfl).symm k) = ix2 p k := funext fun a => Fin.ext (by
    match a with
    | ⟨0, _⟩ => exact lhs_msg_0 _ _
    | ⟨1, _⟩ => exact (lhs_msg_1 _ _).trans hk)
  have er : dot_S8000x320_S320x256_S8000x256_1_0_0_1_n_n.rhsIdx (ix2 p j) ((contrEquiv1 dot_S8000x320_S320x256_S8000x256_1_0_0_1_n_n 320 rfl rfl).symm k) = ix2 k j := funext fun a => Fin.ext (by
    match a with
    | ⟨0, _⟩ => exact (rhs_msg_0 _ _).trans hk
    | ⟨1, _⟩ => exact rhs_msg_1 _ _)
  rw [el, er]

/-- THE STORED BLOCK, entry by entry. -/
theorem stored_apply (x : Vec Ideal S8000x320 .bf16) (w : Vec Ideal S320x256 .bf16) (p : Fin 8000) (j : Fin 256) :
    k0_pay1 x w (ix2 p j) = ∑ k : Fin 320, x (ix2 p k) * w (ix2 k j) := by
  unfold k0_pay1
  simp only [shapeCast_self]
  exact matmul_msg_apply x w p j

end Cert.KernelMessages

end
-- ==== Proof.RowSpec.lean ====
/-
  The node update of one graph-network layer, as a function of ONE node's data.

  A node carries a row of 256 features.  Given the row `a` of summed incoming messages and the node's own row `n`:
    * `pre a n`       : relu(a) + n, entry by entry;
    * `layerNorm x s b`: (x - mean x) · (var x + ε)^(-1/2) · s + b, where mean and variance are taken over the row's
                         256 entries (each a sum divided by 256) and ε is the f32 literal nearest 1e-6;
    * `dense x W b`    : x · W + b, a 256 × 256 matrix applied to the row;
    * `mlp h …`        : three dense layers with a residual connection around each, relu on the first two;
    * `rowOut …`       : layerNorm (n + mlp (layerNorm (pre a n))).
  Every operation is the exact one on the extended reals; nothing here depends on how rows are grouped into blocks.
-/
import Idealize.ShloMosaic.PureOps.Ideal.Laws
import Idealize.ShloMosaic.Lib.ValueIdx

noncomputable section

namespace Cert.RowSpec

open Idealize.ShloMosaic

abbrev Row := Fin 256 → EReal
abbrev Mat := Fin 256 → Fin 256 → EReal

/-- The row length 256 as the f32 literal both programs divide by. -/
def c256 : EReal := Ideal.ofBits .f32 0x43800000#32
/-- The f32 literal nearest 1e-6 that both programs add to the variance. -/
def eps : EReal := Ideal.ofBits .f32 0x358637BD#32

def mean (x : Row) : EReal := Ideal.div (∑ k : Fin 256, x k) c256
def center (x : Row) : Row := fun j => x j - mean x
def var (x : Row) : EReal := Ideal.div (∑ k : Fin 256, center x k * center x k) c256
def layerNorm (x s b : Row) : Row := fun j => center x j * Ideal.rsqrt (var x + eps) * s j + b j
def dense (x : Row) (W : Mat) (b : Row) : Row := fun j => (∑ k : Fin 256, x k * W k j) + b j
def pre (a n : Row) : Row := fun j => max (a j) 0 + n j
/-- First residual step: h + relu(h·W + b). -/
def resRelu (h : Row) (W : Mat) (b : Row) : Row := fun j => h j + max (dense h W b j) 0
/-- Last residual step: h + (h·W + b). -/
def resLin (h : Row) (W : Mat) (b : Row) : Row := fun j => h j + dense h W b j
def mlp (h : Row) (W0 W1 W2 : Mat) (b0 b1 b2 : Row) : Row :=
  resLin (resRelu (resRelu h W0 b0) W1 b1) W2 b2
def rowOut (a n : Row) (W0 W1 W2 : Mat) (b0 b1 b2 s1 c1 s2 c2 : Row) : Row :=
  layerNorm (fun j => n j + mlp (layerNorm (pre a n) s1 c1) W0 W1 W2 b0 b1 b2 j) s2 c2

end Cert.RowSpec

end
-- ==== Proof.ArraySpec.lean ====
/-
  The two array-level functions of the layer, index by index, over literal shapes.

    * `msgs A W`: the projected messages. Entry (e, j) of the [400000, 256] result is the sum over k < 320 of entry
      (e, k) of the edge inputs `A` times entry (k, j) of the projection matrix `W`: a row of the result depends on
      the same row of `A` only.
    * `nodeUpdate agg nodes …`: entry (r, j) of the [50000, 256] result is entry j of `RowSpec.rowOut` of row r of the
      summed messages `agg` and row r of the node features.
  Both are what a row-blocked computation and a whole-array computation alike produce, which is why the blocked kernels
  and the whole-array reference agree.
-/
import proofs.«135678_j62749472195029_1_alg».proof.Proof.RowSpec

noncomputable section

namespace Cert.ArraySpec

open Idealize.ShloMosaic Idealize.ShloMosaic.ValueIdx Cert.RowSpec

/-- The row coordinate of an index of an [a, b] array, as a number below `a`. -/
abbrev rowOf {a b : ℕ} (i : (⟨2, ![a, b]⟩ : Shape).Idx) : Fin a := ⟨(i 0).val, (i 0).isLt⟩
/-- The column coordinate of an index of an [a, b] array, as a number below `b`. -/
abbrev colOf {a b : ℕ} (i : (⟨2, ![a, b]⟩ : Shape).Idx) : Fin b := ⟨(i 1).val, (i 1).isLt⟩

theorem rowOf_ix2 {a b : ℕ} (p : Fin a) (q : Fin b) : rowOf (ix2 p q) = p := rfl
theorem colOf_ix2 {a b : ℕ} (p : Fin a) (q : Fin b) : colOf (ix2 p q) = q := rfl

/-- The projected messages. -/
def msgs (A : (⟨2, ![400000, 320]⟩ : Shape).Idx → EReal) (W : (⟨2, ![320, 256]⟩ : Shape).Idx → EReal) :
    (⟨2, ![400000, 256]⟩ : Shape).Idx → EReal :=
  fun i => ∑ k : Fin 320, A (ix2 (rowOf i) k) * W (ix2 k (colOf i))

/-- The updated node features. -/
def nodeUpdate (agg nodes : (⟨2, ![50000, 256]⟩ : Shape).Idx → EReal) (W0 W1 W2 : Mat) (b0 b1 b2 s1 c1 s2 c2 : Row) :
    (⟨2, ![50000, 256]⟩ : Shape).Idx → EReal :=
  fun i => rowOut (fun k => agg (ix2 (rowOf i) k)) (fun k => nodes (ix2 (rowOf i) k)) W0 W1 W2 b0 b1 b2 s1 c1 s2 c2 (colOf i)

/-- A [256, 256] weight matrix by its two coordinates. -/
def wmat (w : (⟨2, ![256, 256]⟩ : Shape).Idx → EReal) : Mat := fun k j => w (ix2 k j)
/-- The one row of a [1, 256] parameter array. -/
def prow (x : (⟨2, ![1, 256]⟩ : Shape).Idx → EReal) : Row := fun k => x (ix2 (0 : Fin 1) k)

/-- `rowOut` applied to equal data is equal: the form in which a block's rows are matched with the array's. -/
theorem rowOut_congr {a a' n n' : Row} {W0 W0' W1 W1' W2 W2' : Mat} {b0 b0' b1 b1' b2 b2' s1 s1' c1 c1' s2 s2' c2 c2' : Row} {j j' : Fin 256}
    (ha : a = a') (hn : n = n') (hW0 : W0 = W0') (hW1 : W1 = W1') (hW2 : W2 = W2') (hb0 : b0 = b0') (hb1 : b1 = b1') (hb2 : b2 = b2')
    (hs1 : s1 = s1') (hc1 : c1 = c1') (hs2 : s2 = s2') (hc2 : c2 = c2') (hj : j = j') :
    rowOut a n W0 W1 W2 b0 b1 b2 s1 c1 s2 c2 j = rowOut a' n' W0' W1' W2' b0' b1' b2' s1' c1' s2' c2' j' := by
  subst ha hn hW0 hW1 hW2 hb0 hb1 hb2 hs1 hc1 hs2 hc2 hj; rfl

end Cert.ArraySpec

end
-- ==== Proof.RegionMessages.lean ====
/-
  The message-projection region's output array.

  The region's grid has 50 points; point t stages rows 8000·t … 8000·t + 7999 of the [400000, 320] edge inputs and the
  whole [320, 256] projection matrix, and writes back rows 8000·t … 8000·t + 7999 of the [400000, 256] result.  A row of a
  matrix product depends on the same row of the left operand only, so each written block is the matching block of
  `ArraySpec.msgs` of the two whole arrays; the 50 blocks tile the result; hence the array ends at `msgs` of the arrays
  the region found.
-/
import proofs.«135678_j62749472195029_1_alg».proof.Proof.Gen.KernelIdeal.Frame
import proofs.«135678_j62749472195029_1_alg».proof.Proof.KernelMessages
import proofs.«135678_j62749472195029_1_alg».proof.Proof.ArraySpec

set_option maxRecDepth 16384

noncomputable section

namespace Cert.RegionMessages

open Cert.KernelIdeal Cert.KernelIdeal.Gen Cert.ArraySpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the edge-input block and the result block are both block t along the rows; the
    projection matrix is staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array the region leaves in its output window, as a function of the arrays it found. -/
abbrev result (c : Dev nD) : Buf (Elt Ideal) ((c : Thread nD τ).loc main_v10) :=
  msgs (V c main_v8) (V c main_v9)

/-- WHAT POINT `t` WRITES BACK is block `t` of `msgs` of the arrays as the region finds them. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero hz]
  simp only [View.ld_unit_zero (S := S8000x320) hz, View.ld_unit_zero (S := S320x256) hz]
  obtain ⟨e00, e01, e10, e11, e20, e21⟩ := idx_facts t
  funext y
  obtain ⟨p, q, rfl⟩ : ∃ (p : Fin 8000) (q : Fin 256), y = ix2 p q := ⟨y 0, y 1, eq_ix2 y⟩
  show k0_pay1 (iblk0 V c 0 t) (iblk0 V c 1 t) (ix2 p q) = msgs (V c main_v8) (V c main_v9) (((cfg0.win 2).blk t).view.emb (ix2 p q))
  refine (Cert.KernelMessages.stored_apply (iblk0 V c 0 t) (iblk0 V c 1 t) p q).trans ?_
  unfold msgs
  refine Finset.sum_congr rfl fun k _ => ?_
  have h0 : iblk0 V c 0 t (ix2 p k) = V c main_v8 (ix2 (rowOf (((cfg0.win 2).blk t).view.emb (ix2 p q))) k) := by
    show V c main_v8 (((cfg0.win 0).blk t).view.emb (ix2 p k)) = _
    refine congrArg (V c main_v8) (funext fun a => Fin.ext ?_)
    match a with
    | ⟨0, _⟩ => show win0_0.index t (0 : Fin 2) * 8000 + 1 * p.val = win0_2.index t (0 : Fin 2) * 8000 + 1 * p.val; rw [e00, e20]
    | ⟨1, _⟩ => show win0_0.index t (1 : Fin 2) * 320 + 1 * k.val = k.val; rw [e01]; omega
  have h1 : iblk0 V c 1 t (ix2 k q) = V c main_v9 (ix2 k (colOf (((cfg0.win 2).blk t).view.emb (ix2 p q)))) := by
    show V c main_v9 (((cfg0.win 1).blk t).view.emb (ix2 k q)) = _
    refine congrArg (V c main_v9) (funext fun a => Fin.ext ?_)
    match a with
    | ⟨0, _⟩ => show win0_1.index t (0 : Fin 2) * 320 + 1 * k.val = k.val; rw [e10]; omega
    | ⟨1, _⟩ => show win0_1.index t (1 : Fin 2) * 256 + 1 * q.val = win0_2.index t (1 : Fin 2) * 256 + 1 * q.val; rw [e11, e21]
  rw [h0, h1]

/-- Every row of the result lies in the block of the point that is its number divided by 8000. -/
theorem cover (i : S400000x256.Idx) : ∃ t : Fin cfg0.N, (cfg0.win 2).flush t = true ∧ i ∈ ((cfg0.win 2).blk t).view.set := by
  have h0 : (i 0).val < 400000 := (i 0).isLt
  have h1 : (i 1).val < 256 := (i 1).isLt
  have hN : (i 0).val / 8000 < cfg0.N := by show (i 0).val / 8000 < 50; omega
  refine ⟨⟨(i 0).val / 8000, hN⟩, flush0_2 _, ?_⟩
  obtain ⟨-, -, -, -, e20, e21⟩ := idx_facts ⟨(i 0).val / 8000, hN⟩
  show i ∈ ((View.whole main_v10).slice (win0_2.rect ⟨(i 0).val / 8000, hN⟩)).set
  rw [View.set_slice_whole, Rect.mem_set_unit]
  intro a
  match a with
  | ⟨0, _⟩ =>
    show win0_2.index ⟨(i 0).val / 8000, hN⟩ (0 : Fin 2) * 8000 ≤ (i 0).val ∧ (i 0).val < win0_2.index ⟨(i 0).val / 8000, hN⟩ (0 : Fin 2) * 8000 + 8000
    rw [e20]; show (i 0).val / 8000 * 8000 ≤ (i 0).val ∧ (i 0).val < (i 0).val / 8000 * 8000 + 8000; omega
  | ⟨1, _⟩ =>
    show win0_2.index ⟨(i 0).val / 8000, hN⟩ (1 : Fin 2) * 256 ≤ (i 1).val ∧ (i 1).val < win0_2.index ⟨(i 0).val / 8000, hN⟩ (1 : Fin 2) * 256 + 256
    rw [e21]; omega

/-- THE OUTPUT ARRAY after the region: `msgs` of the edge inputs and the projection matrix it found. -/
theorem final (c : Dev nD) : (dat0 V c).arrAt 2 cfg0.N = result V c :=
  (dat0 V c).arrAt_eq_of_cover 2 (result V c) (fun t _ => flushed_eq V c t) cover

end Cert.RegionMessages

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelRows.lean ====
/-
  The node-update kernel's arithmetic, one block of 2000 nodes at a time, read at an entry.

  The body's stored value is a tree of whole-block vector operations on a [2000, 256] block of summed messages, the
  matching block of node features, three [256, 256] weight matrices and seven [1, 256] parameter rows.  Every one of
  those operations acts on each of the block's rows separately: the lane sums run along a row, the column [2000, 1] of
  row statistics is broadcast back along the row, the parameter rows are broadcast down the block, and a matrix
  product's row depends only on the left operand's row.  So entry (p, j) of the stored block is entry j of
  `RowSpec.rowOut` applied to row p of the two input blocks.  The lemmas below say this stage by stage: the mean column,
  the centred block, the variance column, the normalisation, a dense layer, and then the body's named payloads.
-/
import proofs.«135678_j62749472195029_1_alg».proof.Proof.Gen.KernelIdeal.Skeleton
import proofs.«135678_j62749472195029_1_alg».proof.Proof.RowSpec
import proofs.«135678_j62749472195029_1_alg».proof.Proof.LibKeepdims
import Idealize.ShloMosaic.Lib.ValueLayout
import Idealize.ShloMosaic.Lib.Pipeline.Value
import Idealize.ShloMosaic.PureOps.Ideal.Laws

noncomputable section

namespace Cert.KernelRows

open Idealize.ShloMosaic Idealize.ShloMosaic.ValueIdx Cert.KernelIdeal Cert.KernelIdeal.Gen Cert.RowSpec Cert.LibKeepdims

/-! ## Rows of a block, of a parameter row, of a weight matrix -/

/-- Row `p` of a [2000, 256] block. -/
def rowOf (x : FVec Ideal S2000x256 .f32) (p : Fin 2000) : Row := fun k => x (ix2 p k)
/-- The one row of a [1, 256] parameter array. -/
def prow (x : FVec Ideal S1x256 .f32) : Row := fun k => x (ix2 (0 : Fin 1) k)
/-- A [256, 256] weight matrix by its two coordinates. -/
def matOf (w : FVec Ideal S256x256 .bf16) : Mat := fun k j => w (ix2 k j)

/-! ## The [2000, 256] × [256, 256] matrix product into a zero accumulator -/

theorem lhs_node_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_node_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_node_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_node_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, j) of the product is the sum over k of (p, k) of the left operand times (k, j) of the right one. -/
theorem matmul_node_apply (l : FVec Ideal S2000x256 .bf16) (r : FVec Ideal S256x256 .bf16) (p : Fin 2000) (j : Fin 256) :
    matmul dot_S2000x256_S256x256_S2000x256_1_0_0_1_n_n none l r (constant S2000x256 .f32 0x00000000#32) (ix2 p j)
      = ∑ k : Fin 256, l (ix2 p k) * r (ix2 k j) := by
  refine (Ideal.matmul_constant_zero_apply dot_S2000x256_S256x256_S2000x256_1_0_0_1_n_n none l r (ix2 p j)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p j) ((contrEquiv1 dot_S2000x256_S256x256_S2000x256_1_0_0_1_n_n 256 rfl rfl).symm k) = ix2 p k := funext fun a => Fin.ext (by
    match a with
    | ⟨0, _⟩ => exact lhs_node_0 _ _
    | ⟨1, _⟩ => exact (lhs_node_1 _ _).trans hk)
  have er : dot_S2000x256_S256x256_S2000x256_1_0_0_1_n_n.rhsIdx (ix2 p j) ((contrEquiv1 dot_S2000x256_S256x256_S2000x256_1_0_0_1_n_n 256 rfl rfl).symm k) = ix2 k j := funext fun a => Fin.ext (by
    match a with
    | ⟨0, _⟩ => exact (rhs_node_0 _ _).trans hk
    | ⟨1, _⟩ => exact rhs_node_1 _ _)
  rw [el, er]

/-! ## Layer normalisation of a block, row by row -/

/-- The column of row means: the lane sum of each row, as a column, divided by 256. -/
def vmean (x : FVec Ideal S2000x256 .f32) : FVec Ideal S2000x1 .f32 :=
  divf (shapeCast S2000x1 (multiReduction .add [1] S2000 x 0x00000000#32 reduces_S2000x256_S2000 (.inl rfl) rfl) shapeCasts_S2000_S2000x1)
    (broadcast S2000x1 (Scalar.ofBits .f32 0x43800000#32))

theorem vmean_apply (x : FVec Ideal S2000x256 .f32) (p : Fin 2000) (u : Fin 1) : vmean x (ix2 p u) = mean (rowOf x p) := by
  show Ideal.div (shapeCast S2000x1 (multiReduction .add [1] S2000 x 0x00000000#32 reduces_S2000x256_S2000 (.inl rfl) rfl) shapeCasts_S2000_S2000x1 (ix2 p u)) c256 = _
  refine congrArg (Ideal.div · c256) ?_
  refine (shapeCast_a_a1_apply _ shapeCasts_S2000_S2000x1 p u).trans ?_
  exact add_axis1_apply x 0x00000000#32 reduces_S2000x256_S2000 (.inl rfl) rfl p

/-- The block with each row's mean subtracted. -/
def vcenter (x : FVec Ideal S2000x256 .f32) : FVec Ideal S2000x256 .f32 :=
  subf x (broadcastTo S2000x256 (vmean x) broadcasts_S2000x1_S2000x256)

theorem vcenter_apply (x : FVec Ideal S2000x256 .f32) (p : Fin 2000) (j : Fin 256) :
    vcenter x (ix2 p j) = center (rowOf x p) j := by
  show x (ix2 p j) - broadcastTo S2000x256 (vmean x) broadcasts_S2000x1_S2000x256 (ix2 p j) = _
  rw [broadcastTo_a1_ab_apply (vmean x) broadcasts_S2000x1_S2000x256 p j, vmean_apply]
  rfl

/-- The column of row variances: the lane sum of the squared centred block, as a column, divided by 256. -/
def vvar (x : FVec Ideal S2000x256 .f32) : FVec Ideal S2000x1 .f32 :=
  divf (shapeCast S2000x1 (multiReduction .add [1] S2000 (mulf (vcenter x) (vcenter x)) 0x00000000#32 reduces_S2000x256_S2000 (.inl rfl) rfl) shapeCasts_S2000_S2000x1)
    (broadcast S2000x1 (Scalar.ofBits .f32 0x43800000#32))

theorem vvar_apply (x : FVec Ideal S2000x256 .f32) (p : Fin 2000) (u : Fin 1) : vvar x (ix2 p u) = var (rowOf x p) := by
  show Ideal.div (shapeCast S2000x1 (multiReduction .add [1] S2000 (mulf (vcenter x) (vcenter x)) 0x00000000#32 reduces_S2000x256_S2000 (.inl rfl) rfl) shapeCasts_S2000_S2000x1 (ix2 p u)) c256 = _
  refine congrArg (Ideal.div · c256) ?_
  refine (shapeCast_a_a1_apply _ shapeCasts_S2000_S2000x1 p u).trans ?_
  refine (add_axis1_apply (mulf (vcenter x) (vcenter x)) 0x00000000#32 reduces_S2000x256_S2000 (.inl rfl) rfl p).trans ?_
  refine Finset.sum_congr rfl fun k _ => ?_
  show vcenter x (ix2 p k) * vcenter x (ix2 p k) = _
  rw [vcenter_apply]

/-- The normalised block: centred, scaled by the inverse square root of variance + ε, times the scale row, plus the
    bias row. -/
def vln (x : FVec Ideal S2000x256 .f32) (s b : FVec Ideal S1x256 .f32) : FVec Ideal S2000x256 .f32 :=
  addf (mulf (mulf (vcenter x)
      (broadcastTo S2000x256 (rsqrt (addf (vvar x) (broadcast S2000x1 (Scalar.ofBits .f32 0x358637BD#32)))) broadcasts_S2000x1_S2000x256))
      (broadcastTo S2000x256 s broadcasts_S1x256_S2000x256))
    (broadcastTo S2000x256 b broadcasts_S1x256_S2000x256)

theorem vln_apply (x : FVec Ideal S2000x256 .f32) (s b : FVec Ideal S1x256 .f32) (p : Fin 2000) (j : Fin 256) :
    vln x s b (ix2 p j) = layerNorm (rowOf x p) (prow s) (prow b) j := by
  show vcenter x (ix2 p j)
        * broadcastTo S2000x256 (rsqrt (addf (vvar x) (broadcast S2000x1 (Scalar.ofBits .f32 0x358637BD#32)))) broadcasts_S2000x1_S2000x256 (ix2 p j)
        * broadcastTo S2000x256 s broadcasts_S1x256_S2000x256 (ix2 p j)
      + broadcastTo S2000x256 b broadcasts_S1x256_S2000x256 (ix2 p j) = _
  rw [broadcastTo_a1_ab_apply _ broadcasts_S2000x1_S2000x256 p j, broadcastTo_1b_ab_apply s broadcasts_S1x256_S2000x256 p j,
    broadcastTo_1b_ab_apply b broadcasts_S1x256_S2000x256 p j, vcenter_apply]
  show _ * Ideal.rsqrt (vvar x (ix2 p (0 : Fin 1)) + eps) * _ + _ = _
  rw [vvar_apply]
  rfl

/-! ## A dense layer on a block -/

/-- The block (rounded to the matrix unit's input format, which changes nothing here) times a weight matrix, plus the
    bias row. -/
def vdense (x : FVec Ideal S2000x256 .f32) (w : FVec Ideal S256x256 .bf16) (b : FVec Ideal S1x256 .f32) : FVec Ideal S2000x256 .f32 :=
  addf (matmul dot_S2000x256_S256x256_S2000x256_1_0_0_1_n_n none (truncf .bf16 x bitsLt_bf16_f32)
      (shapeCast S256x256 w shapeCasts_S256x256_S256x256) (constant S2000x256 .f32 0x00000000#32))
    (broadcastTo S2000x256 (shapeCast S1x256 b shapeCasts_S1x256_S1x256) broadcasts_S1x256_S2000x256)

theorem vdense_apply (x : FVec Ideal S2000x256 .f32) (w : FVec Ideal S256x256 .bf16) (b : FVec Ideal S1x256 .f32) (p : Fin 2000) (j : Fin 256) :
    vdense x w b (ix2 p j) = dense (rowOf x p) (matOf w) (prow b) j := by
  show matmul dot_S2000x256_S256x256_S2000x256_1_0_0_1_n_n none (truncf .bf16 x bitsLt_bf16_f32)
        (shapeCast S256x256 w shapeCasts_S256x256_S256x256) (constant S2000x256 .f32 0x00000000#32) (ix2 p j)
      + broadcastTo S2000x256 (shapeCast S1x256 b shapeCasts_S1x256_S1x256) broadcasts_S1x256_S2000x256 (ix2 p j) = _
  rw [matmul_node_apply, broadcastTo_1b_ab_apply _ broadcasts_S1x256_S2000x256 p j, shapeCast_self, shapeCast_self]
  rfl

/-! ## The body's named payloads -/

/-- relu(a) + n on a block. -/
def vpre (a n : FVec Ideal S2000x256 .f32) : FVec Ideal S2000x256 .f32 :=
  addf (maximumf a (broadcast S2000x256 (Scalar.ofBits .f32 0x00000000#32))) n

theorem vpre_row (a n : FVec Ideal S2000x256 .f32) (p : Fin 2000) : rowOf (vpre a n) p = pre (rowOf a p) (rowOf n p) := by
  funext k
  show max (a (ix2 p k)) (Ideal.ofBits .f32 0x00000000#32) + n (ix2 p k) = _
  rw [Ideal.ofBits_zero_f32]; rfl

/-- h + relu(y) on a block. -/
def vresRelu (h y : FVec Ideal S2000x256 .f32) : FVec Ideal S2000x256 .f32 :=
  addf h (maximumf y (broadcast S2000x256 (Scalar.ofBits .f32 0x00000000#32)))

theorem vresRelu_row (h : FVec Ideal S2000x256 .f32) (w : FVec Ideal S256x256 .bf16) (b : FVec Ideal S1x256 .f32) (p : Fin 2000) :
    rowOf (vresRelu h (vdense h w b)) p = resRelu (rowOf h p) (matOf w) (prow b) := by
  funext k
  show h (ix2 p k) + max (vdense h w b (ix2 p k)) (Ideal.ofBits .f32 0x00000000#32) = _
  rw [Ideal.ofBits_zero_f32, vdense_apply]; rfl

theorem vresLin_row (h : FVec Ideal S2000x256 .f32) (w : FVec Ideal S256x256 .bf16) (b : FVec Ideal S1x256 .f32) (p : Fin 2000) :
    rowOf (addf h (vdense h w b)) p = resLin (rowOf h p) (matOf w) (prow b) := by
  funext k
  show h (ix2 p k) + vdense h w b (ix2 p k) = _
  rw [vdense_apply]; rfl

/-- The first normalisation is the body's second payload. -/
theorem pay2_eq (v0 v2 : Vec Ideal S2000x256 .f32) (v6 v8 : Vec Ideal S1x256 .f32) :
    k1_pay2 v0 v2 v6 v8 = vln (vpre v0 v2) v6 v8 := by
  unfold k1_pay2 vln vvar vcenter vmean vpre
  simp only [shapeCast_self]

/-- The first dense layer's pre-activation is the third payload. -/
theorem pay3_eq (v0 v2 : Vec Ideal S2000x256 .f32) (v6 v8 : Vec Ideal S1x256 .f32) (v33 : Vec Ideal S256x256 .bf16) (v36 : Vec Ideal S1x256 .f32) :
    k1_pay3 v0 v2 v6 v8 v33 v36 = vdense (k1_pay2 v0 v2 v6 v8) v33 v36 := rfl

/-- The node's features plus the three-layer residual network's result is the fourth payload. -/
theorem pay4_eq (v2 : Vec Ideal S2000x256 .f32) (v31 v39 : FVec Ideal S2000x256 .f32) (v44 : Vec Ideal S256x256 .bf16) (v47 : Vec Ideal S1x256 .f32)
    (v55 : Vec Ideal S256x256 .bf16) (v58 : Vec Ideal S1x256 .f32) :
    k1_pay4 v2 v31 v39 v44 v47 v55 v58
      = addf v2 (addf (vresRelu (vresRelu v31 v39) (vdense (vresRelu v31 v39) v44 v47))
          (vdense (vresRelu (vresRelu v31 v39) (vdense (vresRelu v31 v39) v44 v47)) v55 v58)) := rfl

/-- The stored value is the second normalisation of the fourth payload. -/
theorem pay1_eq (v2 : Vec Ideal S2000x256 .f32) (v31 v39 : FVec Ideal S2000x256 .f32) (v44 : Vec Ideal S256x256 .bf16) (v47 : Vec Ideal S1x256 .f32)
    (v55 : Vec Ideal S256x256 .bf16) (v58 : Vec Ideal S1x256 .f32) (v64 v66 : Vec Ideal S1x256 .f32) :
    k1_pay1 (k1_pay4 v2 v31 v39 v44 v47 v55 v58) (k1_pay5 v64) (k1_pay6 v66) (k1_pay8 v2 v31 v39 v44 v47 v55 v58) (k1_pay9 v2 v31 v39 v44 v47 v55 v58)
      = vln (k1_pay4 v2 v31 v39 v44 v47 v55 v58) v64 v66 := by
  unfold k1_pay1 k1_pay5 k1_pay6 k1_pay8 k1_pay9 k1_pay7 vln vvar vcenter vmean
  simp only [shapeCast_self]

/-- THE STORED BLOCK, entry by entry: `rowOut` of the matching rows of the two input blocks and the parameters. -/
theorem stored_apply (a n : Vec Ideal S2000x256 .f32) (w0 : Vec Ideal S256x256 .bf16) (b0 : Vec Ideal S1x256 .f32)
    (w1 : Vec Ideal S256x256 .bf16) (b1 : Vec Ideal S1x256 .f32) (w2 : Vec Ideal S256x256 .bf16) (b2 : Vec Ideal S1x256 .f32)
    (s1 c1 s2 c2 : Vec Ideal S1x256 .f32) (p : Fin 2000) (j : Fin 256) :
    k1_pay1 (k1_pay4 n (k1_pay2 a n s1 c1) (k1_pay3 a n s1 c1 w0 b0) w1 b1 w2 b2) (k1_pay5 s2) (k1_pay6 c2)
        (k1_pay8 n (k1_pay2 a n s1 c1) (k1_pay3 a n s1 c1 w0 b0) w1 b1 w2 b2)
        (k1_pay9 n (k1_pay2 a n s1 c1) (k1_pay3 a n s1 c1 w0 b0) w1 b1 w2 b2) (ix2 p j)
      = rowOut (rowOf a p) (rowOf n p) (matOf w0) (matOf w1) (matOf w2) (prow b0) (prow b1) (prow b2) (prow s1) (prow c1) (prow s2) (prow c2) j := by
  rw [pay1_eq, vln_apply]
  unfold rowOut
  refine congrArg (fun x => layerNorm x (prow s2) (prow c2) j) ?_
  funext k
  rw [pay4_eq, pay3_eq]
  show n (ix2 p k) + rowOf (addf _ (vdense _ w2 b2)) p k = _
  rw [vresLin_row, vresRelu_row, vresRelu_row]
  have h : rowOf (k1_pay2 a n s1 c1) p = layerNorm (pre (rowOf a p) (rowOf n p)) (prow s1) (prow c1) := by
    funext q
    show k1_pay2 a n s1 c1 (ix2 p q) = _
    rw [pay2_eq, vln_apply, vpre_row]
  rw [h]
  rfl

end Cert.KernelRows

end
-- ==== Proof.RegionNodes.lean ====
/-
  The node-update region's output array.

  The region's grid has 25 points; point t stages rows 2000·t … 2000·t + 1999 of the summed messages and of the node
  features, the three weight matrices and the seven parameter rows whole, and writes back rows 2000·t … 2000·t + 1999 of
  the [50000, 256] result.  The body treats every row of its block separately (KernelRows.stored_apply), so each written
  block is the matching block of `ArraySpec.nodeUpdate` of the whole arrays; the 25 blocks tile the result; hence the
  array ends at `nodeUpdate` of the arrays the region found.
-/
import proofs.«135678_j62749472195029_1_alg».proof.Proof.Gen.KernelIdeal.Frame
import proofs.«135678_j62749472195029_1_alg».proof.Proof.KernelRows
import proofs.«135678_j62749472195029_1_alg».proof.Proof.ArraySpec

set_option maxRecDepth 16384

noncomputable section

namespace Cert.RegionNodes

open Cert.KernelIdeal Cert.KernelIdeal.Gen Cert.ArraySpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the blocks of the summed messages, of the node features and of the result are
    all block t along the rows. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_12.index t (0 : Fin 2) = t.val ∧ win1_12.index t (1 : Fin 2) = 0 :=
  (by decide +kernel : ∀ t : Fin grid1.N, _)

/-- The weight matrices and the parameter rows are staged whole at every point. -/
theorem idx_w2 : ∀ t : Fin cfg1.N, win1_2.index t (0 : Fin 2) = 0 ∧ win1_2.index t (1 : Fin 2) = 0 := (by decide +kernel : ∀ t : Fin grid1.N, _)
theorem idx_w3 : ∀ t : Fin cfg1.N, win1_3.index t (0 : Fin 2) = 0 ∧ win1_3.index t (1 : Fin 2) = 0 := (by decide +kernel : ∀ t : Fin grid1.N, _)
theorem idx_w4 : ∀ t : Fin cfg1.N, win1_4.index t (0 : Fin 2) = 0 ∧ win1_4.index t (1 : Fin 2) = 0 := (by decide +kernel : ∀ t : Fin grid1.N, _)
theorem idx_w5 : ∀ t : Fin cfg1.N, win1_5.index t (0 : Fin 2) = 0 ∧ win1_5.index t (1 : Fin 2) = 0 := (by decide +kernel : ∀ t : Fin grid1.N, _)
theorem idx_w6 : ∀ t : Fin cfg1.N, win1_6.index t (0 : Fin 2) = 0 ∧ win1_6.index t (1 : Fin 2) = 0 := (by decide +kernel : ∀ t : Fin grid1.N, _)
theorem idx_w7 : ∀ t : Fin cfg1.N, win1_7.index t (0 : Fin 2) = 0 ∧ win1_7.index t (1 : Fin 2) = 0 := (by decide +kernel : ∀ t : Fin grid1.N, _)
theorem idx_w8 : ∀ t : Fin cfg1.N, win1_8.index t (0 : Fin 2) = 0 ∧ win1_8.index t (1 : Fin 2) = 0 := (by decide +kernel : ∀ t : Fin grid1.N, _)
theorem idx_w9 : ∀ t : Fin cfg1.N, win1_9.index t (0 : Fin 2) = 0 ∧ win1_9.index t (1 : Fin 2) = 0 := (by decide +kernel : ∀ t : Fin grid1.N, _)
theorem idx_w10 : ∀ t : Fin cfg1.N, win1_10.index t (0 : Fin 2) = 0 ∧ win1_10.index t (1 : Fin 2) = 0 := (by decide +kernel : ∀ t : Fin grid1.N, _)
theorem idx_w11 : ∀ t : Fin cfg1.N, win1_11.index t (0 : Fin 2) = 0 ∧ win1_11.index t (1 : Fin 2) = 0 := (by decide +kernel : ∀ t : Fin grid1.N, _)

/-- The array the region leaves in its output window, as a function of the arrays it found. -/
abbrev result (c : Dev nD) : Buf (Elt Ideal) ((c : Thread nD τ).loc main_v24) :=
  nodeUpdate (V c main_v13) (V c main_arg0) (wmat (V c main_v14)) (wmat (V c main_v15)) (wmat (V c main_v16))
    (prow (V c main_v17)) (prow (V c main_v18)) (prow (V c main_v19))
    (prow (V c main_v20)) (prow (V c main_v21)) (prow (V c main_v22)) (prow (V c main_v23))

/-- WHAT POINT `t` WRITES BACK is block `t` of `nodeUpdate` of the arrays as the region finds them. -/
theorem flushed_eq (c : Dev nD) (t : Fin cfg1.N) :
    (dat1 V c).flushed 12 t = ((cfg1.win 12).blk t).view.read (Elt Ideal) (result V c) := by
  show (cfg1.win 12).cut (grid1.coords t) ((dat1 V c).after 12 t) = _
  rw [after1_12]
  unfold out1_12
  rw [View.canon_unit_zero hz]
  simp only [View.ld_unit_zero (S := S2000x256) hz, View.ld_unit_zero (S := S1x256) hz, View.ld_unit_zero (S := S256x256) hz]
  obtain ⟨r00, r01, r10, r11, r120, r121⟩ := idx_rows t
  obtain ⟨a20, a21⟩ := idx_w2 t
  obtain ⟨a30, a31⟩ := idx_w3 t
  obtain ⟨a40, a41⟩ := idx_w4 t
  obtain ⟨a50, a51⟩ := idx_w5 t
  obtain ⟨a60, a61⟩ := idx_w6 t
  obtain ⟨a70, a71⟩ := idx_w7 t
  obtain ⟨a80, a81⟩ := idx_w8 t
  obtain ⟨a90, a91⟩ := idx_w9 t
  obtain ⟨a100, a101⟩ := idx_w10 t
  obtain ⟨a110, a111⟩ := idx_w11 t
  funext y
  obtain ⟨p, q, rfl⟩ : ∃ (p : Fin 2000) (q : Fin 256), y = ix2 p q := ⟨y 0, y 1, eq_ix2 y⟩
  show k1_pay1 (F := Ideal) _ _ _ _ _ (ix2 p q) = nodeUpdate _ _ _ _ _ _ _ _ _ _ _ _ (((cfg1.win 12).blk t).view.emb (ix2 p q))
  refine (Cert.KernelRows.stored_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) p q).trans ?_
  unfold nodeUpdate
  refine rowOut_congr ?_ ?_ ?_ ?_ ?_ ?_ ?_ ?_ ?_ ?_ ?_ ?_ ?_
  · funext k
    show V c main_v13 (((cfg1.win 0).blk t).view.emb (ix2 p k)) = V c main_v13 (ix2 (rowOf (((cfg1.win 12).blk t).view.emb (ix2 p q))) k)
    refine congrArg (V c main_v13) (funext fun a => Fin.ext ?_)
    match a with
    | ⟨0, _⟩ => show win1_0.index t (0 : Fin 2) * 2000 + 1 * p.val = win1_12.index t (0 : Fin 2) * 2000 + 1 * p.val; rw [r00, r120]
    | ⟨1, _⟩ => show win1_0.index t (1 : Fin 2) * 256 + 1 * k.val = k.val; rw [r01]; omega
  · funext k
    show V c main_arg0 (((cfg1.win 1).blk t).view.emb (ix2 p k)) = V c main_arg0 (ix2 (rowOf (((cfg1.win 12).blk t).view.emb (ix2 p q))) k)
    refine congrArg (V c main_arg0) (funext fun a => Fin.ext ?_)
    match a with
    | ⟨0, _⟩ => show win1_1.index t (0 : Fin 2) * 2000 + 1 * p.val = win1_12.index t (0 : Fin 2) * 2000 + 1 * p.val; rw [r10, r120]
    | ⟨1, _⟩ => show win1_1.index t (1 : Fin 2) * 256 + 1 * k.val = k.val; rw [r11]; omega
  · funext k j
    show V c main_v14 (((cfg1.win 2).blk t).view.emb (ix2 k j)) = V c main_v14 (ix2 k j)
    refine congrArg (V c main_v14) (funext fun a => Fin.ext ?_)
    match a with
    | ⟨0, _⟩ => show win1_2.index t (0 : Fin 2) * 256 + 1 * k.val = k.val; rw [a20]; omega
    | ⟨1, _⟩ => show win1_2.index t (1 : Fin 2) * 256 + 1 * j.val = j.val; rw [a21]; omega
  · funext k j
    show V c main_v15 (((cfg1.win 4).blk t).view.emb (ix2 k j)) = V c main_v15 (ix2 k j)
    refine congrArg (V c main_v15) (funext fun a => Fin.ext ?_)
    match a with
    | ⟨0, _⟩ => show win1_4.index t (0 : Fin 2) * 256 + 1 * k.val = k.val; rw [a40]; omega
    | ⟨1, _⟩ => show win1_4.index t (1 : Fin 2) * 256 + 1 * j.val = j.val; rw [a41]; omega
  · funext k j
    show V c main_v16 (((cfg1.win 6).blk t).view.emb (ix2 k j)) = V c main_v16 (ix2 k j)
    refine congrArg (V c main_v16) (funext fun a => Fin.ext ?_)
    match a with
    | ⟨0, _⟩ => show win1_6.index t (0 : Fin 2) * 256 + 1 * k.val = k.val; rw [a60]; omega
    | ⟨1, _⟩ => show win1_6.index t (1 : Fin 2) * 256 + 1 * j.val = j.val; rw [a61]; omega
  · funext k
    show V c main_v17 (((cfg1.win 3).blk t).view.emb (ix2 (0 : Fin 1) k)) = V c main_v17 (ix2 (0 : Fin 1) k)
    refine congrArg (V c main_v17) (funext fun a => Fin.ext ?_)
    match a with
    | ⟨0, _⟩ => show win1_3.index t (0 : Fin 2) * 1 + 1 * 0 = 0; rw [a30]
    | ⟨1, _⟩ => show win1_3.index t (1 : Fin 2) * 256 + 1 * k.val = k.val; rw [a31]; omega
  · funext k
    show V c main_v18 (((cfg1.win 5).blk t).view.emb (ix2 (0 : Fin 1) k)) = V c main_v18 (ix2 (0 : Fin 1) k)
    refine congrArg (V c main_v18) (funext fun a => Fin.ext ?_)
    match a with
    | ⟨0, _⟩ => show win1_5.index t (0 : Fin 2) * 1 + 1 * 0 = 0; rw [a50]
    | ⟨1, _⟩ => show win1_5.index t (1 : Fin 2) * 256 + 1 * k.val = k.val; rw [a51]; omega
  · funext k
    show V c main_v19 (((cfg1.win 7).blk t).view.emb (ix2 (0 : Fin 1) k)) = V c main_v19 (ix2 (0 : Fin 1) k)
    refine congrArg (V c main_v19) (funext fun a => Fin.ext ?_)
    match a with
    | ⟨0, _⟩ => show win1_7.index t (0 : Fin 2) * 1 + 1 * 0 = 0; rw [a70]
    | ⟨1, _⟩ => show win1_7.index t (1 : Fin 2) * 256 + 1 * k.val = k.val; rw [a71]; omega
  · funext k
    show V c main_v20 (((cfg1.win 8).blk t).view.emb (ix2 (0 : Fin 1) k)) = V c main_v20 (ix2 (0 : Fin 1) k)
    refine congrArg (V c main_v20) (funext fun a => Fin.ext ?_)
    match a with
    | ⟨0, _⟩ => show win1_8.index t (0 : Fin 2) * 1 + 1 * 0 = 0; rw [a80]
    | ⟨1, _⟩ => show win1_8.index t (1 : Fin 2) * 256 + 1 * k.val = k.val; rw [a81]; omega
  · funext k
    show V c main_v21 (((cfg1.win 9).blk t).view.emb (ix2 (0 : Fin 1) k)) = V c main_v21 (ix2 (0 : Fin 1) k)
    refine congrArg (V c main_v21) (funext fun a => Fin.ext ?_)
    match a with
    | ⟨0, _⟩ => show win1_9.index t (0 : Fin 2) * 1 + 1 * 0 = 0; rw [a90]
    | ⟨1, _⟩ => show win1_9.index t (1 : Fin 2) * 256 + 1 * k.val = k.val; rw [a91]; omega
  · funext k
    show V c main_v22 (((cfg1.win 10).blk t).view.emb (ix2 (0 : Fin 1) k)) = V c main_v22 (ix2 (0 : Fin 1) k)
    refine congrArg (V c main_v22) (funext fun a => Fin.ext ?_)
    match a with
    | ⟨0, _⟩ => show win1_10.index t (0 : Fin 2) * 1 + 1 * 0 = 0; rw [a100]
    | ⟨1, _⟩ => show win1_10.index t (1 : Fin 2) * 256 + 1 * k.val = k.val; rw [a101]; omega
  · funext k
    show V c main_v23 (((cfg1.win 11).blk t).view.emb (ix2 (0 : Fin 1) k)) = V c main_v23 (ix2 (0 : Fin 1) k)
    refine congrArg (V c main_v23) (funext fun a => Fin.ext ?_)
    match a with
    | ⟨0, _⟩ => show win1_11.index t (0 : Fin 2) * 1 + 1 * 0 = 0; rw [a110]
    | ⟨1, _⟩ => show win1_11.index t (1 : Fin 2) * 256 + 1 * k.val = k.val; rw [a111]; omega
  · refine Fin.ext ?_
    show q.val = win1_12.index t (1 : Fin 2) * 256 + 1 * q.val
    rw [r121]; omega

/-- Every row of the result lies in the block of the point that is its number divided by 2000. -/
theorem cover (i : S50000x256.Idx) : ∃ t : Fin cfg1.N, (cfg1.win 12).flush t = true ∧ i ∈ ((cfg1.win 12).blk t).view.set := by
  have h0 : (i 0).val < 50000 := (i 0).isLt
  have h1 : (i 1).val < 256 := (i 1).isLt
  have hN : (i 0).val / 2000 < cfg1.N := by show (i 0).val / 2000 < 25; omega
  refine ⟨⟨(i 0).val / 2000, hN⟩, flush1_12 _, ?_⟩
  obtain ⟨-, -, -, -, e0, e1⟩ := idx_rows ⟨(i 0).val / 2000, hN⟩
  show i ∈ ((View.whole main_v24).slice (win1_12.rect ⟨(i 0).val / 2000, hN⟩)).set
  rw [View.set_slice_whole, Rect.mem_set_unit]
  intro a
  match a with
  | ⟨0, _⟩ =>
    show win1_12.index ⟨(i 0).val / 2000, hN⟩ (0 : Fin 2) * 2000 ≤ (i 0).val ∧ (i 0).val < win1_12.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_12.index ⟨(i 0).val / 2000, hN⟩ (1 : Fin 2) * 256 ≤ (i 1).val ∧ (i 1).val < win1_12.index ⟨(i 0).val / 2000, hN⟩ (1 : Fin 2) * 256 + 256
    rw [e1]; omega

/-- THE OUTPUT ARRAY after the region: `nodeUpdate` of the arrays it found. -/
theorem final (c : Dev nD) : (dat1 V c).arrAt 12 cfg1.N = result V c :=
  (dat1 V c).arrAt_eq_of_cover 12 (result V c) (fun t _ => flushed_eq V c t) cover

end Cert.RegionNodes

end
-- ==== Proof.KernelHost.lean ====
/-
  The kernel program's host operations, read.

  Before the message-projection region the host gathers each edge's sender row from the node features, joins the edge
  features to it, and rounds both that [400000, 320] array and the projection matrix to the matrix unit's input format —
  a change of format only, so the identity on the values.  Between the two regions it scatter-adds the projected messages
  into a zero [50000, 256] array at each edge's receiver row, rounds the three dense-layer matrices likewise, and reshapes
  the seven [256] parameter vectors to [1, 256] rows.  Reading these through, the program's result buffer ends at
  `nodeUpdate` of the scatter-added `msgs` and of the arguments themselves.
-/
import proofs.«135678_j62749472195029_1_alg».proof.Proof.KernelRun
import proofs.«135678_j62749472195029_1_alg».proof.Proof.RegionMessages
import proofs.«135678_j62749472195029_1_alg».proof.Proof.RegionNodes
import Idealize.ShloMosaic.Lib.StableHlo.Run
import Idealize.ShloMosaic.Lib.ValueLayout

set_option maxRecDepth 16384

noncomputable section

namespace Cert.KernelHost

open Cert.KernelIdeal Cert.KernelIdeal.Gen Cert.KernelIdeal.RunValue Cert.ArraySpec
open Idealize.ShloMosaic Idealize.ShloMosaic.TcCoe Idealize.ShloMosaic.ValueIdx Idealize.SL.Sem Idealize.ShloMosaic.StableHlo

/-- Each edge's sender row beside its edge features: the gather (negative sender numbers counted from the end, as jnp
    indexing does) and the join along the feature axis. -/
def edgeIn (x0 : (⟨S50000x256, .f32⟩ : BufTy).Contents (Elt Ideal)) (x1 : (⟨S400000x64, .f32⟩ : BufTy).Contents (Elt Ideal))
    (x2 : (⟨S400000, .i32⟩ : BufTy).Contents (Elt Ideal)) : (⟨S400000x320, .f32⟩ : BufTy).Contents (Elt Ideal) :=
  concatenate S400000x320 1 [⟨S400000x256, Host.gather gather_S50000x256_S400000x1_S400000x256_1_0_n_n_0_1_1256 x0
      (broadcastInDim S400000x1 ![0] bcast_S400000_S400000x1_0
        (select (cmpi .slt x2 (broadcastInDim S400000 ![] bcast_S_S400000 (constantI S_ 32 0#32)))
          (addi x2 (broadcastInDim S400000 ![] bcast_S_S400000 (constantI S_ 32 50000#32))) x2))⟩, ⟨S400000x64, x1⟩]
    concatenates_S400000x256_S400000x64_S400000x320_d1

/-- The messages summed per receiver: a scatter-add into zeros at each edge's receiver row. -/
def aggOf (x3 : (⟨S400000, .i32⟩ : BufTy).Contents (Elt Ideal)) (msg : (⟨S400000x256, .f32⟩ : BufTy).Contents (Elt Ideal)) :
    (⟨S50000x256, .f32⟩ : BufTy).Contents (Elt Ideal) :=
  Host.scatterAdd (F := Ideal) scatter_S50000x256_S400000x1_S400000x256_1_0_0_1
    (broadcastInDim S50000x256 ![] bcast_S_S50000x256 (constant (F := Ideal) S_ .f32 0x00000000#32))
    (broadcastInDim S400000x1 ![0] bcast_S400000_S400000x1_0 x3) msg

variable (m : (ℓ : Loc nD τ sig) → Buf (Elt Ideal) ℓ) (ρ : Dev nD → PrngReg)

/-! ## Before the first region -/

theorem V1_v8 (c : Dev nD) : V1 m ρ c main_v8 = truncf (F := Ideal) .bf16 (edgeIn (m ((c : Thread nD τ).loc main_arg0)) (m ((c : Thread nD τ).loc main_arg1)) (m ((c : Thread nD τ).loc main_arg2))) bitsLt_bf16_f32 := by
  show StableHlo.after hostOps0 (W0 m ρ c) (Proc.devRef .tc main_v8) = _
  dsimp only [hostOps0]
  after_results
  all_goals rfl

theorem V1_v9 (c : Dev nD) : V1 m ρ c main_v9 = truncf (F := Ideal) .bf16 (m ((c : Thread nD τ).loc main_arg4)) bitsLt_bf16_f32 := by
  show StableHlo.after hostOps0 (W0 m ρ c) (Proc.devRef .tc main_v9) = _
  dsimp only [hostOps0]
  after_results
  all_goals rfl

/-- The first region leaves the projected messages. -/
theorem W2_v10 (c : Dev nD) : W2 m ρ c (Proc.devRef .tc main_v10) = (msgs (edgeIn (m ((c : Thread nD τ).loc main_arg0)) (m ((c : Thread nD τ).loc main_arg1)) (m ((c : Thread nD τ).loc main_arg2))) (m ((c : Thread nD τ).loc main_arg4))) := by
  refine (W2_arr m ρ c 2).trans ((Cert.RegionMessages.final (V1 m ρ) c).trans ?_)
  unfold Cert.RegionMessages.result
  rw [V1_v8, V1_v9]
  rfl

/-- A buffer neither the first stretch of host operations nor the first region writes still holds its launch contents. -/
theorem W2_kept (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_arg0 (c : Dev nD) : W2 m ρ c (Proc.devRef .tc main_arg0) = (m ((c : Thread nD τ).loc main_arg0)) :=
  W2_kept m ρ c main_arg0 (by decide) (by dsimp only [hostOps0]; after_results; all_goals rfl)
theorem W2_arg3 (c : Dev nD) : W2 m ρ c (Proc.devRef .tc main_arg3) = (m ((c : Thread nD τ).loc main_arg3)) :=
  W2_kept m ρ c main_arg3 (by decide) (by dsimp only [hostOps0]; after_results; all_goals rfl)
theorem W2_arg5 (c : Dev nD) : W2 m ρ c (Proc.devRef .tc main_arg5) = (m ((c : Thread nD τ).loc main_arg5)) :=
  W2_kept m ρ c main_arg5 (by decide) (by dsimp only [hostOps0]; after_results; all_goals rfl)
theorem W2_arg6 (c : Dev nD) : W2 m ρ c (Proc.devRef .tc main_arg6) = (m ((c : Thread nD τ).loc main_arg6)) :=
  W2_kept m ρ c main_arg6 (by decide) (by dsimp only [hostOps0]; after_results; all_goals rfl)
theorem W2_arg7 (c : Dev nD) : W2 m ρ c (Proc.devRef .tc main_arg7) = (m ((c : Thread nD τ).loc main_arg7)) :=
  W2_kept m ρ c main_arg7 (by decide) (by dsimp only [hostOps0]; after_results; all_goals rfl)
theorem W2_arg8 (c : Dev nD) : W2 m ρ c (Proc.devRef .tc main_arg8) = (m ((c : Thread nD τ).loc main_arg8)) :=
  W2_kept m ρ c main_arg8 (by decide) (by dsimp only [hostOps0]; after_results; all_goals rfl)
theorem W2_arg9 (c : Dev nD) : W2 m ρ c (Proc.devRef .tc main_arg9) = (m ((c : Thread nD τ).loc main_arg9)) :=
  W2_kept m ρ c main_arg9 (by decide) (by dsimp only [hostOps0]; after_results; all_goals rfl)
theorem W2_arg10 (c : Dev nD) : W2 m ρ c (Proc.devRef .tc main_arg10) = (m ((c : Thread nD τ).loc main_arg10)) :=
  W2_kept m ρ c main_arg10 (by decide) (by dsimp only [hostOps0]; after_results; all_goals rfl)
theorem W2_arg11 (c : Dev nD) : W2 m ρ c (Proc.devRef .tc main_arg11) = (m ((c : Thread nD τ).loc main_arg11)) :=
  W2_kept m ρ c main_arg11 (by decide) (by dsimp only [hostOps0]; after_results; all_goals rfl)
theorem W2_arg12 (c : Dev nD) : W2 m ρ c (Proc.devRef .tc main_arg12) = (m ((c : Thread nD τ).loc main_arg12)) :=
  W2_kept m ρ c main_arg12 (by decide) (by dsimp only [hostOps0]; after_results; all_goals rfl)
theorem W2_arg13 (c : Dev nD) : W2 m ρ c (Proc.devRef .tc main_arg13) = (m ((c : Thread nD τ).loc main_arg13)) :=
  W2_kept m ρ c main_arg13 (by decide) (by dsimp only [hostOps0]; after_results; all_goals rfl)
theorem W2_arg14 (c : Dev nD) : W2 m ρ c (Proc.devRef .tc main_arg14) = (m ((c : Thread nD τ).loc main_arg14)) :=
  W2_kept m ρ c main_arg14 (by decide) (by dsimp only [hostOps0]; after_results; all_goals rfl)

/-! ## Between the regions -/

theorem V3_v13 (c : Dev nD) : V3 m ρ c main_v13 = aggOf (m ((c : Thread nD τ).loc main_arg3)) (msgs (edgeIn (m ((c : Thread nD τ).loc main_arg0)) (m ((c : Thread nD τ).loc main_arg1)) (m ((c : Thread nD τ).loc main_arg2))) (m ((c : Thread nD τ).loc main_arg4))) := by
  show StableHlo.after hostOps1 (W2 m ρ c) (Proc.devRef .tc main_v13) = _
  dsimp only [hostOps1]
  after_results
  rw [W2_arg3, W2_v10]
  rfl

theorem V3_arg0 (c : Dev nD) : V3 m ρ c main_arg0 = (m ((c : Thread nD τ).loc main_arg0)) := by
  show StableHlo.after hostOps1 (W2 m ρ c) (Proc.devRef .tc main_arg0) = _
  dsimp only [hostOps1]
  after_results
  exact W2_arg0 m ρ c

theorem V3_v14 (c : Dev nD) : V3 m ρ c main_v14 = truncf (F := Ideal) .bf16 (m ((c : Thread nD τ).loc main_arg5)) bitsLt_bf16_f32 := by
  show StableHlo.after hostOps1 (W2 m ρ c) (Proc.devRef .tc main_v14) = _
  dsimp only [hostOps1]
  after_results
  rw [W2_arg5]
theorem V3_v15 (c : Dev nD) : V3 m ρ c main_v15 = truncf (F := Ideal) .bf16 (m ((c : Thread nD τ).loc main_arg7)) bitsLt_bf16_f32 := by
  show StableHlo.after hostOps1 (W2 m ρ c) (Proc.devRef .tc main_v15) = _
  dsimp only [hostOps1]
  after_results
  rw [W2_arg7]
theorem V3_v16 (c : Dev nD) : V3 m ρ c main_v16 = truncf (F := Ideal) .bf16 (m ((c : Thread nD τ).loc main_arg9)) bitsLt_bf16_f32 := by
  show StableHlo.after hostOps1 (W2 m ρ c) (Proc.devRef .tc main_v16) = _
  dsimp only [hostOps1]
  after_results
  rw [W2_arg9]

theorem V3_v17 (c : Dev nD) : V3 m ρ c main_v17 = shapeCast S1x256 (m ((c : Thread nD τ).loc main_arg6)) shapeCasts_S256_S1x256 := by
  show StableHlo.after hostOps1 (W2 m ρ c) (Proc.devRef .tc main_v17) = _
  dsimp only [hostOps1]
  after_results
  rw [W2_arg6]
  rfl
theorem V3_v18 (c : Dev nD) : V3 m ρ c main_v18 = shapeCast S1x256 (m ((c : Thread nD τ).loc main_arg8)) shapeCasts_S256_S1x256 := by
  show StableHlo.after hostOps1 (W2 m ρ c) (Proc.devRef .tc main_v18) = _
  dsimp only [hostOps1]
  after_results
  rw [W2_arg8]
  rfl
theorem V3_v19 (c : Dev nD) : V3 m ρ c main_v19 = shapeCast S1x256 (m ((c : Thread nD τ).loc main_arg10)) shapeCasts_S256_S1x256 := by
  show StableHlo.after hostOps1 (W2 m ρ c) (Proc.devRef .tc main_v19) = _
  dsimp only [hostOps1]
  after_results
  rw [W2_arg10]
  rfl
theorem V3_v20 (c : Dev nD) : V3 m ρ c main_v20 = shapeCast S1x256 (m ((c : Thread nD τ).loc main_arg11)) shapeCasts_S256_S1x256 := by
  show StableHlo.after hostOps1 (W2 m ρ c) (Proc.devRef .tc main_v20) = _
  dsimp only [hostOps1]
  after_results
  rw [W2_arg11]
  rfl
theorem V3_v21 (c : Dev nD) : V3 m ρ c main_v21 = shapeCast S1x256 (m ((c : Thread nD τ).loc main_arg12)) shapeCasts_S256_S1x256 := by
  show StableHlo.after hostOps1 (W2 m ρ c) (Proc.devRef .tc main_v21) = _
  dsimp only [hostOps1]
  after_results
  rw [W2_arg12]
  rfl
theorem V3_v22 (c : Dev nD) : V3 m ρ c main_v22 = shapeCast S1x256 (m ((c : Thread nD τ).loc main_arg13)) shapeCasts_S256_S1x256 := by
  show StableHlo.after hostOps1 (W2 m ρ c) (Proc.devRef .tc main_v22) = _
  dsimp only [hostOps1]
  after_results
  rw [W2_arg13]
  rfl
theorem V3_v23 (c : Dev nD) : V3 m ρ c main_v23 = shapeCast S1x256 (m ((c : Thread nD τ).loc main_arg14)) shapeCasts_S256_S1x256 := by
  show StableHlo.after hostOps1 (W2 m ρ c) (Proc.devRef .tc main_v23) = _
  dsimp only [hostOps1]
  after_results
  rw [W2_arg14]
  rfl

/-- A [256] vector reshaped to a [1, 256] row: its one row is the vector. -/
theorem prow_reshape (x : (⟨S256, .f32⟩ : BufTy).Contents (Elt Ideal)) :
    prow (shapeCast S1x256 x shapeCasts_S256_S1x256) = fun k => x (ix1 k) := by
  funext k
  exact shapeCast_a_1a_apply x shapeCasts_S256_S1x256 (0 : Fin 1) k

theorem row_v17 (c : Dev nD) : prow (V3 m ρ c main_v17) = fun k => (m ((c : Thread nD τ).loc main_arg6)) (ix1 k) := by
  rw [V3_v17]; exact prow_reshape _
theorem row_v18 (c : Dev nD) : prow (V3 m ρ c main_v18) = fun k => (m ((c : Thread nD τ).loc main_arg8)) (ix1 k) := by
  rw [V3_v18]; exact prow_reshape _
theorem row_v19 (c : Dev nD) : prow (V3 m ρ c main_v19) = fun k => (m ((c : Thread nD τ).loc main_arg10)) (ix1 k) := by
  rw [V3_v19]; exact prow_reshape _
theorem row_v20 (c : Dev nD) : prow (V3 m ρ c main_v20) = fun k => (m ((c : Thread nD τ).loc main_arg11)) (ix1 k) := by
  rw [V3_v20]; exact prow_reshape _
theorem row_v21 (c : Dev nD) : prow (V3 m ρ c main_v21) = fun k => (m ((c : Thread nD τ).loc main_arg12)) (ix1 k) := by
  rw [V3_v21]; exact prow_reshape _
theorem row_v22 (c : Dev nD) : prow (V3 m ρ c main_v22) = fun k => (m ((c : Thread nD τ).loc main_arg13)) (ix1 k) := by
  rw [V3_v22]; exact prow_reshape _
theorem row_v23 (c : Dev nD) : prow (V3 m ρ c main_v23) = fun k => (m ((c : Thread nD τ).loc main_arg14)) (ix1 k) := by
  rw [V3_v23]; exact prow_reshape _

/-! ## The result -/

/-- What the program's result buffer ends holding, as a function of the arguments. -/
def result (c : Dev nD) : Buf (Elt Ideal) ((c : Thread nD τ).loc main_v24) :=
  nodeUpdate (aggOf (m ((c : Thread nD τ).loc main_arg3)) (msgs (edgeIn (m ((c : Thread nD τ).loc main_arg0)) (m ((c : Thread nD τ).loc main_arg1)) (m ((c : Thread nD τ).loc main_arg2))) (m ((c : Thread nD τ).loc main_arg4)))) (m ((c : Thread nD τ).loc main_arg0)) (wmat (m ((c : Thread nD τ).loc main_arg5))) (wmat (m ((c : Thread nD τ).loc main_arg7))) (wmat (m ((c : Thread nD τ).loc main_arg9)))
    (fun k => (m ((c : Thread nD τ).loc main_arg6)) (ix1 k)) (fun k => (m ((c : Thread nD τ).loc main_arg8)) (ix1 k)) (fun k => (m ((c : Thread nD τ).loc main_arg10)) (ix1 k)) (fun k => (m ((c : Thread nD τ).loc main_arg11)) (ix1 k)) (fun k => (m ((c : Thread nD τ).loc main_arg12)) (ix1 k)) (fun k => (m ((c : Thread nD τ).loc main_arg13)) (ix1 k)) (fun k => (m ((c : Thread nD τ).loc main_arg14)) (ix1 k))

theorem region_result (c : Dev nD) : Cert.RegionNodes.result (V3 m ρ) c = result m c := by
  unfold Cert.RegionNodes.result result
  rw [V3_v13, V3_arg0, V3_v14, V3_v15, V3_v16, row_v17, row_v18, row_v19, row_v20, row_v21, row_v22, row_v23]
  rfl

/-- THE KERNEL PROGRAM'S RUN, READ: every weakly fair execution terminates without a fault, the result buffer at
    `result` and the argument arrays as launched. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans ((result_arr m ρ c).trans
      ((Cert.RegionNodes.final (V3 m ρ) c).trans (region_result m ρ c))), (h c).2⟩)
    (run_value m ρ)

end Cert.KernelHost

end
-- ==== Proof.RefRows.lean ====
/-
  The reference's node update read at an entry.

  After the edge messages have been summed into the [50000, 256] array `agg`, the reference is a chain of whole-array
  operations — relu, add, two layer normalisations, three dense layers with residual connections — each of which acts on
  every row of the [50000, 256] arrays separately.  Read one operation at a time (the generated read-at-an-index lemmas),
  entry (r, j) of the result is entry j of `RowSpec.rowOut` applied to row r of `agg` and of the node features.  The stages
  below follow the chain: relu(agg) + nodes; its mean, centring and variance; the first normalisation; the three residual
  steps; nodes + that; and the second normalisation.
-/
import proofs.«135678_j62749472195029_1_alg».proof.Proof.RefRead
import proofs.«135678_j62749472195029_1_alg».proof.Proof.RowSpec

noncomputable section

namespace Cert.RefRows

open Idealize.ShloMosaic Idealize.ShloMosaic.ValueIdx Cert.ReferenceIdeal Cert.ReferenceIdeal.Read Cert.RowSpec

/-! ## Where each layout operation reads: the generated index maps at an index given by coordinates -/

section Indices
variable (r : Fin 50000) (k j : Fin 256) (u : Fin 1)

theorem i14 : idx_main_v14 (ix1 r) k = ix2 r k := funext fun a => by match a with | ⟨0, _⟩ => rfl | ⟨1, _⟩ => rfl
theorem i21 : idx_main_v21 (ix1 r) k = ix2 r k := funext fun a => by match a with | ⟨0, _⟩ => rfl | ⟨1, _⟩ => rfl
theorem i56 : idx_main_v56 (ix1 r) k = ix2 r k := funext fun a => by match a with | ⟨0, _⟩ => rfl | ⟨1, _⟩ => rfl
theorem i63 : idx_main_v63 (ix1 r) k = ix2 r k := funext fun a => by match a with | ⟨0, _⟩ => rfl | ⟨1, _⟩ => rfl
theorem i15 : idx_main_v15 (ix2 r u) = ix1 r := funext fun a => by match a with | ⟨0, _⟩ => rfl
theorem i22 : idx_main_v22 (ix2 r u) = ix1 r := funext fun a => by match a with | ⟨0, _⟩ => rfl
theorem i57 : idx_main_v57 (ix2 r u) = ix1 r := funext fun a => by match a with | ⟨0, _⟩ => rfl
theorem i64 : idx_main_v64 (ix2 r u) = ix1 r := funext fun a => by match a with | ⟨0, _⟩ => rfl
theorem i18 : idx_main_v18 (ix2 r k) = ix2 r (0 : Fin 1) := funext fun a => by match a with | ⟨0, _⟩ => rfl | ⟨1, _⟩ => rfl
theorem i25 : idx_main_v25 (ix2 r k) = ix2 r (0 : Fin 1) := funext fun a => by match a with | ⟨0, _⟩ => rfl | ⟨1, _⟩ => rfl
theorem i30 : idx_main_v30 (ix2 r k) = ix2 r (0 : Fin 1) := funext fun a => by match a with | ⟨0, _⟩ => rfl | ⟨1, _⟩ => rfl
theorem i60 : idx_main_v60 (ix2 r k) = ix2 r (0 : Fin 1) := funext fun a => by match a with | ⟨0, _⟩ => rfl | ⟨1, _⟩ => rfl
theorem i67 : idx_main_v67 (ix2 r k) = ix2 r (0 : Fin 1) := funext fun a => by match a with | ⟨0, _⟩ => rfl | ⟨1, _⟩ => rfl
theorem i72 : idx_main_v72 (ix2 r k) = ix2 r (0 : Fin 1) := funext fun a => by match a with | ⟨0, _⟩ => rfl | ⟨1, _⟩ => rfl
theorem i32 : idx_main_v32 (ix2 u k) = ix1 k := funext fun a => by match a with | ⟨0, _⟩ => rfl
theorem i35 : idx_main_v35 (ix2 u k) = ix1 k := funext fun a => by match a with | ⟨0, _⟩ => rfl
theorem i39 : idx_main_v39 (ix2 u k) = ix1 k := funext fun a => by match a with | ⟨0, _⟩ => rfl
theorem i45 : idx_main_v45 (ix2 u k) = ix1 k := funext fun a => by match a with | ⟨0, _⟩ => rfl
theorem i51 : idx_main_v51 (ix2 u k) = ix1 k := funext fun a => by match a with | ⟨0, _⟩ => rfl
theorem i74 : idx_main_v74 (ix2 u k) = ix1 k := funext fun a => by match a with | ⟨0, _⟩ => rfl
theorem i77 : idx_main_v77 (ix2 u k) = ix1 k := funext fun a => by match a with | ⟨0, _⟩ => rfl
theorem i33 : idx_main_v33 (ix2 r k) = ix2 (0 : Fin 1) k := funext fun a => by match a with | ⟨0, _⟩ => rfl | ⟨1, _⟩ => rfl
theorem i36 : idx_main_v36 (ix2 r k) = ix2 (0 : Fin 1) k := funext fun a => by match a with | ⟨0, _⟩ => rfl | ⟨1, _⟩ => rfl
theorem i40 : idx_main_v40 (ix2 r k) = ix2 (0 : Fin 1) k := funext fun a => by match a with | ⟨0, _⟩ => rfl | ⟨1, _⟩ => rfl
theorem i46 : idx_main_v46 (ix2 r k) = ix2 (0 : Fin 1) k := funext fun a => by match a with | ⟨0, _⟩ => rfl | ⟨1, _⟩ => rfl
theorem i52 : idx_main_v52 (ix2 r k) = ix2 (0 : Fin 1) k := funext fun a => by match a with | ⟨0, _⟩ => rfl | ⟨1, _⟩ => rfl
theorem i75 : idx_main_v75 (ix2 r k) = ix2 (0 : Fin 1) k := funext fun a => by match a with | ⟨0, _⟩ => rfl | ⟨1, _⟩ => rfl
theorem i78 : idx_main_v78 (ix2 r k) = ix2 (0 : Fin 1) k := funext fun a => by match a with | ⟨0, _⟩ => rfl | ⟨1, _⟩ => rfl
theorem l38 : lidx_main_v38 (ix2 r j) k = ix2 r k := funext fun a => by match a with | ⟨0, _⟩ => rfl | ⟨1, _⟩ => rfl
theorem l44 : lidx_main_v44 (ix2 r j) k = ix2 r k := funext fun a => by match a with | ⟨0, _⟩ => rfl | ⟨1, _⟩ => rfl
theorem l50 : lidx_main_v50 (ix2 r j) k = ix2 r k := funext fun a => by match a with | ⟨0, _⟩ => rfl | ⟨1, _⟩ => rfl
theorem r38 : ridx_main_v38 (ix2 r j) k = ix2 k j := funext fun a => by match a with | ⟨0, _⟩ => rfl | ⟨1, _⟩ => rfl
theorem r44 : ridx_main_v44 (ix2 r j) k = ix2 k j := funext fun a => by match a with | ⟨0, _⟩ => rfl | ⟨1, _⟩ => rfl
theorem r50 : ridx_main_v50 (ix2 r j) k = ix2 k j := funext fun a => by match a with | ⟨0, _⟩ => rfl | ⟨1, _⟩ => rfl

end Indices

/-! ## Rows of the arrays -/

/-- A [256] parameter vector as a row. -/
def vrow (x : (⟨S256, .f32⟩ : BufTy).Contents (Elt Ideal)) : Row := fun k => x (ix1 k)
/-- A [256, 256] weight matrix by its two coordinates. -/
def mrow (x : (⟨S256x256, .f32⟩ : BufTy).Contents (Elt Ideal)) : Mat := fun k j => x (ix2 k j)
/-- Row `r` of the node features. -/
def nodeRow (x0 : (⟨S50000x256, .f32⟩ : BufTy).Contents (Elt Ideal)) (r : Fin 50000) : Row := fun k => x0 (ix2 r k)

section Stages

variable (x0 : (⟨S50000x256, .f32⟩ : BufTy).Contents (Elt Ideal)) (x1 : (⟨S400000x64, .f32⟩ : BufTy).Contents (Elt Ideal))
  (x2 x3 : (⟨S400000, .i32⟩ : BufTy).Contents (Elt Ideal)) (x4 : (⟨S320x256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 x11 x12 x13 x14 : (⟨S256, .f32⟩ : BufTy).Contents (Elt Ideal))
  (r : Fin 50000) (k j : Fin 256) (u : Fin 1)

/-- Row `r` of the summed messages (the scatter-add's result). -/
def aggRow : Row := fun k => val_main_v11 (F := Ideal) x0 x1 x2 x3 x4 (ix2 r k)

/-- relu(agg) + nodes. -/
theorem s13 : val_main_v13 (F := Ideal) x0 x1 x2 x3 x4 (ix2 r k) = pre (aggRow x0 x1 x2 x3 x4 r) (nodeRow x0 r) k := by
  simp only [val_main_v13_apply, val_main_v12_apply, val_main_call0_v0_apply, val_main_call0_cst_apply, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- Its mean along the row. -/
theorem s17 : val_main_v17 (F := Ideal) x0 x1 x2 x3 x4 (ix2 r u) = mean (pre (aggRow x0 x1 x2 x3 x4 r) (nodeRow x0 r)) := by
  simp only [val_main_v17_apply, val_main_v15_apply, val_main_v14_apply, val_main_v16_apply, val_main_cst_2_apply, val_main_cst_1_apply,
    i15, i14, s13, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s19 : val_main_v19 (F := Ideal) x0 x1 x2 x3 x4 (ix2 r k) = center (pre (aggRow x0 x1 x2 x3 x4 r) (nodeRow x0 r)) k := by
  simp only [val_main_v19_apply, val_main_v18_apply, i18, s13, s17, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s26 : val_main_v26 (F := Ideal) x0 x1 x2 x3 x4 (ix2 r k) = center (pre (aggRow x0 x1 x2 x3 x4 r) (nodeRow x0 r)) k := by
  simp only [val_main_v26_apply, val_main_v25_apply, i25, s13, s17, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- Its variance along the row. -/
theorem s24 : val_main_v24 (F := Ideal) x0 x1 x2 x3 x4 (ix2 r u) = var (pre (aggRow x0 x1 x2 x3 x4 r) (nodeRow x0 r)) := by
  simp only [val_main_v24_apply, val_main_v22_apply, val_main_v21_apply, val_main_v23_apply, val_main_cst_4_apply, val_main_cst_3_apply,
    val_main_v20_apply, i22, i21, s19, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- The first normalisation. -/
theorem s37 : val_main_v37 (F := Ideal) x0 x1 x2 x3 x4 x11 x12 (ix2 r k) = (layerNorm (pre (aggRow x0 x1 x2 x3 x4 r) (nodeRow x0 r)) (vrow x11) (vrow x12)) k := by
  simp only [val_main_v37_apply, val_main_v36_apply, val_main_v35_apply, val_main_v34_apply, val_main_v33_apply, val_main_v32_apply,
    val_main_v31_apply, val_main_v30_apply, val_main_v29_apply, val_main_v28_apply, val_main_v27_apply, val_main_cst_5_apply,
    i36, i35, i33, i32, i30, s26, s24, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- The first residual step. -/
theorem s43 : val_main_v43 (F := Ideal) x0 x1 x2 x3 x4 x5 x6 x11 x12 (ix2 r k) = (resRelu (layerNorm (pre (aggRow x0 x1 x2 x3 x4 r) (nodeRow x0 r)) (vrow x11) (vrow x12)) (mrow x5) (vrow x6)) k := by
  simp only [val_main_v43_apply, val_main_v42_apply, val_main_v41_apply, val_main_v40_apply, val_main_v39_apply, val_main_v38_apply,
    val_main_call1_v0_apply, val_main_call1_cst_apply, i40, i39, l38, r38, s37, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- The second residual step. -/
theorem s49 : val_main_v49 (F := Ideal) x0 x1 x2 x3 x4 x5 x6 x7 x8 x11 x12 (ix2 r k) = (resRelu (resRelu (layerNorm (pre (aggRow x0 x1 x2 x3 x4 r) (nodeRow x0 r)) (vrow x11) (vrow x12)) (mrow x5) (vrow x6)) (mrow x7) (vrow x8)) k := by
  simp only [val_main_v49_apply, val_main_v48_apply, val_main_v47_apply, val_main_v46_apply, val_main_v45_apply, val_main_v44_apply,
    val_main_call2_v0_apply, val_main_call2_cst_apply, i46, i45, l44, r44, s43, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- The third residual step, and the node's features added. -/
theorem s55 : val_main_v55 (F := Ideal) x0 x1 x2 x3 x4 x5 x6 x7 x8 x9 x10 x11 x12 (ix2 r k) = (fun q => (nodeRow x0 r) q + mlp (layerNorm (pre (aggRow x0 x1 x2 x3 x4 r) (nodeRow x0 r)) (vrow x11) (vrow x12)) (mrow x5) (mrow x7) (mrow x9) (vrow x6) (vrow x8) (vrow x10) q) k := by
  simp only [val_main_v55_apply, val_main_v54_apply, val_main_v53_apply, val_main_v52_apply, val_main_v51_apply, val_main_v50_apply,
    i52, i51, l50, r50, s49, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s59 : val_main_v59 (F := Ideal) x0 x1 x2 x3 x4 x5 x6 x7 x8 x9 x10 x11 x12 (ix2 r u) = mean (fun q => (nodeRow x0 r) q + mlp (layerNorm (pre (aggRow x0 x1 x2 x3 x4 r) (nodeRow x0 r)) (vrow x11) (vrow x12)) (mrow x5) (mrow x7) (mrow x9) (vrow x6) (vrow x8) (vrow x10) q) := by
  simp only [val_main_v59_apply, val_main_v57_apply, val_main_v56_apply, val_main_v58_apply, val_main_cst_7_apply, val_main_cst_6_apply,
    i57, i56, s55, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s61 : val_main_v61 (F := Ideal) x0 x1 x2 x3 x4 x5 x6 x7 x8 x9 x10 x11 x12 (ix2 r k) = center (fun q => (nodeRow x0 r) q + mlp (layerNorm (pre (aggRow x0 x1 x2 x3 x4 r) (nodeRow x0 r)) (vrow x11) (vrow x12)) (mrow x5) (mrow x7) (mrow x9) (vrow x6) (vrow x8) (vrow x10) q) k := by
  simp only [val_main_v61_apply, val_main_v60_apply, i60, s55, s59, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s68 : val_main_v68 (F := Ideal) x0 x1 x2 x3 x4 x5 x6 x7 x8 x9 x10 x11 x12 (ix2 r k) = center (fun q => (nodeRow x0 r) q + mlp (layerNorm (pre (aggRow x0 x1 x2 x3 x4 r) (nodeRow x0 r)) (vrow x11) (vrow x12)) (mrow x5) (mrow x7) (mrow x9) (vrow x6) (vrow x8) (vrow x10) q) k := by
  simp only [val_main_v68_apply, val_main_v67_apply, i67, s55, s59, Ideal.addf_def, Ideal.subf_def, Ideal.mulf_def, Ideal.maximumf_def, Ideal.hostDivf_def, Ideal.hostUnary_rsqrt_def, Ideal.ofBits_def, Ideal.ofBits_zero_f32, zero_add, Host.rsqrt]
  rfl

theorem s66 : val_main_v66 (F := Ideal) x0 x1 x2 x3 x4 x5 x6 x7 x8 x9 x10 x11 x12 (ix2 r u) = var (fun q => (nodeRow x0 r) q + mlp (layerNorm (pre (aggRow x0 x1 x2 x3 x4 r) (nodeRow x0 r)) (vrow x11) (vrow x12)) (mrow x5) (mrow x7) (mrow x9) (vrow x6) (vrow x8) (vrow x10) q) := by
  simp only [val_main_v66_apply, val_main_v64_apply, val_main_v63_apply, val_main_v65_apply, val_main_cst_9_apply, val_main_cst_8_apply,
    val_main_v62_apply, i64, i63, s61, Ideal.addf_def, Ideal.subf_def, Ideal.mulf_def, Ideal.maximumf_def, Ideal.hostDivf_def, Ideal.hostUnary_rsqrt_def, Ideal.ofBits_def, Ideal.ofBits_zero_f32, zero_add, Host.rsqrt]
  rfl

/-- THE REFERENCE'S RESULT, entry by entry: `rowOut` of row `r` of the summed messages and of the node features. -/
theorem result_apply : val_main_v79 (F := Ideal) x0 x1 x2 x3 x4 x5 x6 x7 x8 x9 x10 x11 x12 x13 x14 (ix2 r k)
    = rowOut (aggRow x0 x1 x2 x3 x4 r) (nodeRow x0 r) (mrow x5) (mrow x7) (mrow x9) (vrow x6) (vrow x8) (vrow x10) (vrow x11) (vrow x12) (vrow x13) (vrow x14) k := by
  simp only [val_main_v79_apply, val_main_v78_apply, val_main_v77_apply, val_main_v76_apply, val_main_v75_apply, val_main_v74_apply,
    val_main_v73_apply, val_main_v72_apply, val_main_v71_apply, val_main_v70_apply, val_main_v69_apply, val_main_cst_10_apply,
    i78, i77, i75, i74, i72, s68, s66, Ideal.addf_def, Ideal.subf_def, Ideal.mulf_def, Ideal.maximumf_def, Ideal.hostDivf_def, Ideal.hostUnary_rsqrt_def, Ideal.ofBits_def, Ideal.ofBits_zero_f32, zero_add, Host.rsqrt]
  rfl

end Stages

end Cert.RefRows

end
-- ==== Proof.RefBridge.lean ====
/-
  The reference as the same two array-level functions.

  The reference's `dot_general` of the edge inputs with the projection matrix is `ArraySpec.msgs` of them (a sum over the
  320 contracted coordinates at every entry), and everything after its scatter-add is `ArraySpec.nodeUpdate` of the
  scatter-added array and the arguments (RefRows.result_apply, entry by entry).
-/
import proofs.«135678_j62749472195029_1_alg».proof.Proof.RefRows
import proofs.«135678_j62749472195029_1_alg».proof.Proof.ArraySpec

noncomputable section

namespace Cert.RefBridge

open Idealize.ShloMosaic Idealize.ShloMosaic.ValueIdx Cert.ReferenceIdeal Cert.ReferenceIdeal.Read Cert.ArraySpec Cert.RowSpec

variable (x0 : (⟨S50000x256, .f32⟩ : BufTy).Contents (Elt Ideal)) (x1 : (⟨S400000x64, .f32⟩ : BufTy).Contents (Elt Ideal))
  (x2 x3 : (⟨S400000, .i32⟩ : BufTy).Contents (Elt Ideal)) (x4 : (⟨S320x256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 x11 x12 x13 x14 : (⟨S256, .f32⟩ : BufTy).Contents (Elt Ideal))

theorem lidx8 (i : S400000x256.Idx) (k : Fin 320) : lidx_main_v8 i k = ix2 (rowOf i) k :=
  funext fun a => by match a with | ⟨0, _⟩ => rfl | ⟨1, _⟩ => rfl
theorem ridx8 (i : S400000x256.Idx) (k : Fin 320) : ridx_main_v8 i k = ix2 k (colOf i) :=
  funext fun a => by match a with | ⟨0, _⟩ => rfl | ⟨1, _⟩ => rfl

/-- The reference's projected messages. -/
theorem messages_eq : val_main_v8 (F := Ideal) x0 x1 x2 x4 = msgs (val_main_v7 (F := Ideal) x0 x1 x2) x4 := by
  funext i
  rw [val_main_v8_apply]
  unfold msgs
  refine Finset.sum_congr rfl fun k _ => ?_
  rw [lidx8, ridx8]

/-- The reference's result. -/
theorem result_eq : val_main_v79 (F := Ideal) x0 x1 x2 x3 x4 x5 x6 x7 x8 x9 x10 x11 x12 x13 x14
    = nodeUpdate (val_main_v11 (F := Ideal) x0 x1 x2 x3 x4) x0 (wmat x5) (wmat x7) (wmat x9)
        (fun k => x6 (ix1 k)) (fun k => x8 (ix1 k)) (fun k => x10 (ix1 k)) (fun k => x11 (ix1 k)) (fun k => x12 (ix1 k))
        (fun k => x13 (ix1 k)) (fun k => x14 (ix1 k)) := by
  funext i
  obtain ⟨r, k, rfl⟩ : ∃ (r : Fin 50000) (k : Fin 256), i = ix2 r k := ⟨i 0, i 1, eq_ix2 i⟩
  rw [Cert.RefRows.result_apply]
  rfl

end Cert.RefBridge

end
-- ==== Proof.RefRun.lean ====
/-
  The reference program's run, read back.

  The reference is a straight line of 99 host operations.  Every weakly fair execution of it terminates with each buffer
  at the fold of the operations over the launch contents (the library's run of a straight line); read at the result
  buffer, the fold is the last stage of the operations taken one at a time — `val_main_v79` of the argument arrays —
  and read at an argument buffer it is the argument's launch contents, since no operation writes an argument.
-/
import proofs.«135678_j62749472195029_1_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 99 operations, in order (a called function's operations stand in its call's place, spelt `TRef.…`). -/
abbrev ops : List (HloOp τ sig (Elt F)) :=
  [ nullary main_c (constantI S_ 32 0#32),
    unary main_c main_v0 (broadcastInDim S400000 ![] bcast_S_S400000 : (⟨S_, .i32⟩ : BufTy).Contents (Elt F) → (⟨S400000, .i32⟩ : BufTy).Contents (Elt F)),
    binary main_arg2 main_v0 main_v1 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v2 (broadcastInDim S400000 ![] bcast_S_S400000 : (⟨S_, .i32⟩ : BufTy).Contents (Elt F) → (⟨S400000, .i32⟩ : BufTy).Contents (Elt F)),
    binary main_arg2 main_v2 main_v3 (addi : (⟨S400000, .i32⟩ : BufTy).Contents (Elt F) → (⟨S400000, .i32⟩ : BufTy).Contents (Elt F) → (⟨S400000, .i32⟩ : BufTy).Contents (Elt F)),
    ternary main_v1 main_v3 main_arg2 main_v4 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v4 main_v5 (broadcastInDim S400000x1 ![0] bcast_S400000_S400000x1_0 : (⟨S400000, .i32⟩ : BufTy).Contents (Elt F) → (⟨S400000x1, .i32⟩ : BufTy).Contents (Elt F)),
    binary main_arg0 main_v5 main_v6 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    binary main_v6 main_arg1 main_v7 ((fun a b => concatenate S400000x320 1 [⟨S400000x256, a⟩, ⟨S400000x64, b⟩] concatenates_S400000x256_S400000x64_S400000x320_d1) : (⟨S400000x256, .f32⟩ : BufTy).Contents (Elt F) → (⟨S400000x64, .f32⟩ : BufTy).Contents (Elt F) → (⟨S400000x320, .f32⟩ : BufTy).Contents (Elt F)),
    binary main_v7 main_arg4 main_v8 ((fun l r => Host.dotGeneral dot_S400000x320_S320x256_S400000x256_1_0_0_1_n_n none l r) : (⟨S400000x320, .f32⟩ : BufTy).Contents (Elt F) → (⟨S320x256, .f32⟩ : BufTy).Contents (Elt F) → (⟨S400000x256, .f32⟩ : BufTy).Contents (Elt F)),
    nullary main_cst (constant S_ .f32 0x00000000#32),
    unary main_cst main_v9 (broadcastInDim S50000x256 ![] bcast_S_S50000x256 : (⟨S_, .f32⟩ : BufTy).Contents (Elt F) → (⟨S50000x256, .f32⟩ : BufTy).Contents (Elt F)),
    unary main_arg3 main_v10 (broadcastInDim S400000x1 ![0] bcast_S400000_S400000x1_0 : (⟨S400000, .i32⟩ : BufTy).Contents (Elt F) → (⟨S400000x1, .i32⟩ : BufTy).Contents (Elt F)),
    ternary main_v9 main_v10 main_v8 main_v11 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v11) (TRef.of (T := ⟨S50000x256, .f32⟩) main_call0_v0) (TRef.of (T := ⟨S50000x256, .f32⟩) main_v12) maximumf,
    binary main_v12 main_arg0 main_v13 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v13 main_cst_1 main_v14 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v14 main_v15 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43800000#32),
    unary main_cst_2 main_v16 (broadcastInDim S50000x1 ![] bcast_S_S50000x1 : (⟨S_, .f32⟩ : BufTy).Contents (Elt F) → (⟨S50000x1, .f32⟩ : BufTy).Contents (Elt F)),
    binary main_v15 main_v16 main_v17 (Host.divf : (⟨S50000x1, .f32⟩ : BufTy).Contents (Elt F) → (⟨S50000x1, .f32⟩ : BufTy).Contents (Elt F) → (⟨S50000x1, .f32⟩ : BufTy).Contents (Elt F)),
    unary main_v17 main_v18 (broadcastInDim S50000x256 ![0, 1] bcast_S50000x1_S50000x256_0_1 : (⟨S50000x1, .f32⟩ : BufTy).Contents (Elt F) → (⟨S50000x256, .f32⟩ : BufTy).Contents (Elt F)),
    binary main_v13 main_v18 main_v19 (subf : (⟨S50000x256, .f32⟩ : BufTy).Contents (Elt F) → (⟨S50000x256, .f32⟩ : BufTy).Contents (Elt F) → (⟨S50000x256, .f32⟩ : BufTy).Contents (Elt F)),
    binary main_v19 main_v19 main_v20 (mulf : (⟨S50000x256, .f32⟩ : BufTy).Contents (Elt F) → (⟨S50000x256, .f32⟩ : BufTy).Contents (Elt F) → (⟨S50000x256, .f32⟩ : BufTy).Contents (Elt F)),
    nullary main_cst_3 (constant S_ .f32 0x00000000#32),
    binary main_v20 main_cst_3 main_v21 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v21 main_v22 (broadcastInDim S50000x1 ![0] bcast_S50000_S50000x1_0 : (⟨S50000, .f32⟩ : BufTy).Contents (Elt F) → (⟨S50000x1, .f32⟩ : BufTy).Contents (Elt F)),
    nullary main_cst_4 (constant S_ .f32 0x43800000#32),
    unary main_cst_4 main_v23 (broadcastInDim S50000x1 ![] bcast_S_S50000x1 : (⟨S_, .f32⟩ : BufTy).Contents (Elt F) → (⟨S50000x1, .f32⟩ : BufTy).Contents (Elt F)),
    binary main_v22 main_v23 main_v24 (Host.divf : (⟨S50000x1, .f32⟩ : BufTy).Contents (Elt F) → (⟨S50000x1, .f32⟩ : BufTy).Contents (Elt F) → (⟨S50000x1, .f32⟩ : BufTy).Contents (Elt F)),
    unary main_v17 main_v25 (broadcastInDim S50000x256 ![0, 1] bcast_S50000x1_S50000x256_0_1 : (⟨S50000x1, .f32⟩ : BufTy).Contents (Elt F) → (⟨S50000x256, .f32⟩ : BufTy).Contents (Elt F)),
    binary main_v13 main_v25 main_v26 (subf : (⟨S50000x256, .f32⟩ : BufTy).Contents (Elt F) → (⟨S50000x256, .f32⟩ : BufTy).Contents (Elt F) → (⟨S50000x256, .f32⟩ : BufTy).Contents (Elt F)),
    nullary main_cst_5 (constant S_ .f32 0x358637BD#32),
    unary main_cst_5 main_v27 (broadcastInDim S50000x1 ![] bcast_S_S50000x1 : (⟨S_, .f32⟩ : BufTy).Contents (Elt F) → (⟨S50000x1, .f32⟩ : BufTy).Contents (Elt F)),
    binary main_v24 main_v27 main_v28 (addf : (⟨S50000x1, .f32⟩ : BufTy).Contents (Elt F) → (⟨S50000x1, .f32⟩ : BufTy).Contents (Elt F) → (⟨S50000x1, .f32⟩ : BufTy).Contents (Elt F)),
    unary main_v28 main_v29 (Host.rsqrt : (⟨S50000x1, .f32⟩ : BufTy).Contents (Elt F) → (⟨S50000x1, .f32⟩ : BufTy).Contents (Elt F)),
    unary main_v29 main_v30 (broadcastInDim S50000x256 ![0, 1] bcast_S50000x1_S50000x256_0_1 : (⟨S50000x1, .f32⟩ : BufTy).Contents (Elt F) → (⟨S50000x256, .f32⟩ : BufTy).Contents (Elt F)),
    binary main_v26 main_v30 main_v31 (mulf : (⟨S50000x256, .f32⟩ : BufTy).Contents (Elt F) → (⟨S50000x256, .f32⟩ : BufTy).Contents (Elt F) → (⟨S50000x256, .f32⟩ : BufTy).Contents (Elt F)),
    unary main_arg11 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (mulf : (⟨S50000x256, .f32⟩ : BufTy).Contents (Elt F) → (⟨S50000x256, .f32⟩ : BufTy).Contents (Elt F) → (⟨S50000x256, .f32⟩ : BufTy).Contents (Elt F)),
    unary main_arg12 main_v35 (broadcastInDim S1x256 ![1] bcast_S256_S1x256_1 : (⟨S256, .f32⟩ : BufTy).Contents (Elt F) → (⟨S1x256, .f32⟩ : BufTy).Contents (Elt F)),
    unary main_v35 main_v36 (broadcastInDim S50000x256 ![0, 1] bcast_S1x256_S50000x256_0_1 : (⟨S1x256, .f32⟩ : BufTy).Contents (Elt F) → (⟨S50000x256, .f32⟩ : BufTy).Contents (Elt F)),
    binary main_v34 main_v36 main_v37 (addf : (⟨S50000x256, .f32⟩ : BufTy).Contents (Elt F) → (⟨S50000x256, .f32⟩ : BufTy).Contents (Elt F) → (⟨S50000x256, .f32⟩ : BufTy).Contents (Elt F)),
    binary main_v37 main_arg5 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v41) (TRef.of (T := ⟨S50000x256, .f32⟩) main_call1_v0) (TRef.of (T := ⟨S50000x256, .f32⟩) main_v42) maximumf,
    binary main_v37 main_v42 main_v43 (addf : (⟨S50000x256, .f32⟩ : BufTy).Contents (Elt F) → (⟨S50000x256, .f32⟩ : BufTy).Contents (Elt F) → (⟨S50000x256, .f32⟩ : BufTy).Contents (Elt F)),
    binary main_v43 main_arg7 main_v44 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg8 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v47) (TRef.of (T := ⟨S50000x256, .f32⟩) main_call2_v0) (TRef.of (T := ⟨S50000x256, .f32⟩) main_v48) maximumf,
    binary main_v43 main_v48 main_v49 (addf : (⟨S50000x256, .f32⟩ : BufTy).Contents (Elt F) → (⟨S50000x256, .f32⟩ : BufTy).Contents (Elt F) → (⟨S50000x256, .f32⟩ : BufTy).Contents (Elt F)),
    binary main_v49 main_arg9 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg10 main_v51 (broadcastInDim S1x256 ![1] bcast_S256_S1x256_1 : (⟨S256, .f32⟩ : BufTy).Contents (Elt F) → (⟨S1x256, .f32⟩ : BufTy).Contents (Elt F)),
    unary main_v51 main_v52 (broadcastInDim S50000x256 ![0, 1] bcast_S1x256_S50000x256_0_1 : (⟨S1x256, .f32⟩ : BufTy).Contents (Elt F) → (⟨S50000x256, .f32⟩ : BufTy).Contents (Elt F)),
    binary main_v50 main_v52 main_v53 (addf : (⟨S50000x256, .f32⟩ : BufTy).Contents (Elt F) → (⟨S50000x256, .f32⟩ : BufTy).Contents (Elt F) → (⟨S50000x256, .f32⟩ : BufTy).Contents (Elt F)),
    binary main_v49 main_v53 main_v54 (addf : (⟨S50000x256, .f32⟩ : BufTy).Contents (Elt F) → (⟨S50000x256, .f32⟩ : BufTy).Contents (Elt F) → (⟨S50000x256, .f32⟩ : BufTy).Contents (Elt F)),
    binary main_arg0 main_v54 main_v55 (addf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x00000000#32),
    binary main_v55 main_cst_6 main_v56 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    nullary main_cst_7 (constant S_ .f32 0x43800000#32),
    unary main_cst_7 main_v58 (broadcastInDim S50000x1 ![] bcast_S_S50000x1 : (⟨S_, .f32⟩ : BufTy).Contents (Elt F) → (⟨S50000x1, .f32⟩ : BufTy).Contents (Elt F)),
    binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    unary main_v59 main_v60 (broadcastInDim S50000x256 ![0, 1] bcast_S50000x1_S50000x256_0_1 : (⟨S50000x1, .f32⟩ : BufTy).Contents (Elt F) → (⟨S50000x256, .f32⟩ : BufTy).Contents (Elt F)),
    binary main_v55 main_v60 main_v61 (subf : (⟨S50000x256, .f32⟩ : BufTy).Contents (Elt F) → (⟨S50000x256, .f32⟩ : BufTy).Contents (Elt F) → (⟨S50000x256, .f32⟩ : BufTy).Contents (Elt F)),
    binary main_v61 main_v61 main_v62 (mulf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v62 main_cst_8 main_v63 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v63 main_v64 (broadcastInDim S50000x1 ![0] bcast_S50000_S50000x1_0 : (⟨S50000, .f32⟩ : BufTy).Contents (Elt F) → (⟨S50000x1, .f32⟩ : BufTy).Contents (Elt F)),
    nullary main_cst_9 (constant S_ .f32 0x43800000#32),
    unary main_cst_9 main_v65 (broadcastInDim S50000x1 ![] bcast_S_S50000x1 : (⟨S_, .f32⟩ : BufTy).Contents (Elt F) → (⟨S50000x1, .f32⟩ : BufTy).Contents (Elt F)),
    binary main_v64 main_v65 main_v66 (Host.divf : (⟨S50000x1, .f32⟩ : BufTy).Contents (Elt F) → (⟨S50000x1, .f32⟩ : BufTy).Contents (Elt F) → (⟨S50000x1, .f32⟩ : BufTy).Contents (Elt F)),
    unary main_v59 main_v67 (broadcastInDim S50000x256 ![0, 1] bcast_S50000x1_S50000x256_0_1 : (⟨S50000x1, .f32⟩ : BufTy).Contents (Elt F) → (⟨S50000x256, .f32⟩ : BufTy).Contents (Elt F)),
    binary main_v55 main_v67 main_v68 (subf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x358637BD#32),
    unary main_cst_10 main_v69 (broadcastInDim S50000x1 ![] bcast_S_S50000x1 : (⟨S_, .f32⟩ : BufTy).Contents (Elt F) → (⟨S50000x1, .f32⟩ : BufTy).Contents (Elt F)),
    binary main_v66 main_v69 main_v70 (addf : (⟨S50000x1, .f32⟩ : BufTy).Contents (Elt F) → (⟨S50000x1, .f32⟩ : BufTy).Contents (Elt F) → (⟨S50000x1, .f32⟩ : BufTy).Contents (Elt F)),
    unary main_v70 main_v71 (Host.rsqrt : (⟨S50000x1, .f32⟩ : BufTy).Contents (Elt F) → (⟨S50000x1, .f32⟩ : BufTy).Contents (Elt F)),
    unary main_v71 main_v72 (broadcastInDim S50000x256 ![0, 1] bcast_S50000x1_S50000x256_0_1 : (⟨S50000x1, .f32⟩ : BufTy).Contents (Elt F) → (⟨S50000x256, .f32⟩ : BufTy).Contents (Elt F)),
    binary main_v68 main_v72 main_v73 (mulf : (⟨S50000x256, .f32⟩ : BufTy).Contents (Elt F) → (⟨S50000x256, .f32⟩ : BufTy).Contents (Elt F) → (⟨S50000x256, .f32⟩ : BufTy).Contents (Elt F)),
    unary main_arg13 main_v74 (broadcastInDim S1x256 ![1] bcast_S256_S1x256_1 : (⟨S256, .f32⟩ : BufTy).Contents (Elt F) → (⟨S1x256, .f32⟩ : BufTy).Contents (Elt F)),
    unary main_v74 main_v75 (broadcastInDim S50000x256 ![0, 1] bcast_S1x256_S50000x256_0_1 : (⟨S1x256, .f32⟩ : BufTy).Contents (Elt F) → (⟨S50000x256, .f32⟩ : BufTy).Contents (Elt F)),
    binary main_v73 main_v75 main_v76 (mulf : (⟨S50000x256, .f32⟩ : BufTy).Contents (Elt F) → (⟨S50000x256, .f32⟩ : BufTy).Contents (Elt F) → (⟨S50000x256, .f32⟩ : BufTy).Contents (Elt F)),
    unary main_arg14 main_v77 (broadcastInDim S1x256 ![1] bcast_S256_S1x256_1 : (⟨S256, .f32⟩ : BufTy).Contents (Elt F) → (⟨S1x256, .f32⟩ : BufTy).Contents (Elt F)),
    unary main_v77 main_v78 (broadcastInDim S50000x256 ![0, 1] bcast_S1x256_S50000x256_0_1 : (⟨S1x256, .f32⟩ : BufTy).Contents (Elt F) → (⟨S50000x256, .f32⟩ : BufTy).Contents (Elt F)),
    binary main_v76 main_v78 main_v79 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
set_option maxHeartbeats 4000000 in
/-- The fold of the operations, read at the result buffer, is the last stage. -/
theorem out_eq (m : (ℓ : Loc nD τ sig) → Buf (Elt F) ℓ) (c : Dev nD) :
    StableHlo.after (ops (F := F)) (launchContents m c) (Proc.devRef .tc main_v79)
      = Cert.ReferenceIdeal.Read.val_main_v79 (F := F)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14)) := by
  after_results_simp
  rfl

set_option maxRecDepth 8192 in
set_option maxHeartbeats 4000000 in
/-- On every device, from any memory with zero counters: every weakly fair execution of @main terminates with the result
    at `val_main_v79` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = Cert.ReferenceIdeal.Read.val_main_v79 (F := F)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v79).trans (out_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.Value

end
-- ==== Proof.lean ====
/-
  One layer of a message-passing graph network, as two row-blocked kernels against its whole-array reference.

  Both programs gather each edge's sender features, join the edge features, project with `W_message`, sum the projected
  messages at each edge's receiver, and update every node by
      layerNorm (nodes + mlp (layerNorm (relu(agg) + nodes)))
  with a three-layer residual network `mlp`.  The kernel program does the projection in 50 blocks of 8000 edges and the
  node update in 25 blocks of 2000 nodes, through the matrix unit (its operands rounded to a narrower float format: at
  the ideal values a change of format is the identity); the reference does both on whole arrays.

  Why they agree at the ideal values, entry by entry:
    * a row of a matrix product depends only on the same row of its left operand, so the 50 projected blocks are the
      blocks of one whole product (`ArraySpec.msgs`);
    * the gather before and the scatter-add after are the SAME host operations in both programs, applied to equal
      arrays;
    * the node update treats every row separately — its sums run along a row, its statistics are broadcast back along
      the row, its matrix products are row by row — so the 25 updated blocks are the blocks of one whole update
      (`ArraySpec.nodeUpdate`, a row at a time `RowSpec.rowOut`), and the reference's chain of whole-array operations is
      that same function (RefRows).
  No algebraic law beyond reading both sides as the same sums is used, so the precondition (finite inputs) is never
  opened: the equality holds on all extended reals.  The frames are the generated ones (the reference's is its run with
  the result dropped), and the idealization rewrote nothing.
-/
import proofs.«135678_j62749472195029_1_alg».proof.Defs
import proofs.«135678_j62749472195029_1_alg».proof.Proof.Gen.Kernel
import proofs.«135678_j62749472195029_1_alg».proof.Proof.Gen.Kernel.Skeleton
import proofs.«135678_j62749472195029_1_alg».proof.Proof.Gen.Kernel.Launch
import proofs.«135678_j62749472195029_1_alg».proof.Proof.Gen.Kernel.Points
import proofs.«135678_j62749472195029_1_alg».proof.Proof.Gen.Kernel.Frame
import proofs.«135678_j62749472195029_1_alg».proof.Proof.Gen.KernelIdeal
import proofs.«135678_j62749472195029_1_alg».proof.Proof.Gen.KernelIdeal.Skeleton
import proofs.«135678_j62749472195029_1_alg».proof.Proof.Gen.KernelIdeal.Launch
import proofs.«135678_j62749472195029_1_alg».proof.Proof.Gen.KernelIdeal.Points
import proofs.«135678_j62749472195029_1_alg».proof.Proof.Gen.KernelIdeal.Frame
import proofs.«135678_j62749472195029_1_alg».proof.Proof.Gen.ReferenceIdeal
import proofs.«135678_j62749472195029_1_alg».proof.Proof.Gen.Pre_finite_inputs
import proofs.«135678_j62749472195029_1_alg».proof.Proof.KernelHost
import proofs.«135678_j62749472195029_1_alg».proof.Proof.RefBridge
import proofs.«135678_j62749472195029_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same node update of the same scatter-added messages of the same edge inputs. -/
theorem algebraic : Cert.algebraic_KernelIdeal_ReferenceIdeal := by
  intro m ρ m' ρ' _ hagree
  refine ⟨fun c => Cert.KernelHost.result m c, Cert.KernelHost.run m ρ, ?_⟩
  refine (θ_run Cert.ReferenceIdeal.defs _ _).mono (fun _ h c => ⟨(h c).1.trans ?_, (h c).2⟩)
    (Cert.ReferenceIdeal.Value.run (F := Ideal) m' ρ')
  rw [Cert.RefBridge.result_eq]
  obtain ⟨h0, h1, h2, h3, h4, h5, h6, h7, h8, h9, h10, h11, h12, h13, h14⟩ := hagree c
  rw [h0, h1, h2, h3, h4, h5, h6, h7, h8, h9, h10, h11, h12, h13, h14]
  unfold Cert.KernelHost.result Cert.ReferenceIdeal.Read.val_main_v11
  rw [Cert.RefBridge.messages_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
